-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v63)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v88) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S500000x117 : Shape := ⟨2, ![500000, 117]⟩
abbrev S2000000 : Shape := ⟨1, ![2000000]⟩
abbrev S117x128 : Shape := ⟨2, ![117, 128]⟩
abbrev S128 : Shape := ⟨1, ![128]⟩
abbrev S3x128x128 : Shape := ⟨3, ![3, 128, 128]⟩
abbrev S3x128 : Shape := ⟨2, ![3, 128]⟩
abbrev S_ : Shape := ⟨0, ![]⟩

class Facts : Prop where
  bcast_S_S500000x117 : S_.BroadcastsInDim S500000x117 (![] : Fin 0 → Fin S500000x117.rank)
  reducesTo_S500000x117_S_d0_1 : S500000x117.ReducesTo [0, 1] S_
  h_S_ : 0 < S_.numel
  bcast_S_S117x128 : S_.BroadcastsInDim S117x128 (![] : Fin 0 → Fin S117x128.rank)
  reducesTo_S117x128_S_d0_1 : S117x128.ReducesTo [0, 1] S_
  bcast_S_S128 : S_.BroadcastsInDim S128 (![] : Fin 0 → Fin S128.rank)
  reducesTo_S128_S_d0 : S128.ReducesTo [0] S_
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_

variable [Facts]

def fn_part1 {F : FTy → Type} [FloatOps F] (main_arg6 : FVec F S3x128x128 .f32) (main_arg7 : FVec F S3x128 .f32) (main_v13 : IVec S_ 1) (main_v16 : IVec S3x128x128 1) : IVec S_ 1 :=
  let main_c_5 : IVec S_ 1 := constantI S_ 1 1#1
  let main_v17 : IVec S_ 1 := (fun x v => Host.reduce IntOp.andi x v reducesTo_S3x128x128_S_d0_1_2 h_S_) main_v16 main_c_5
  let main_v18 : IVec S_ 1 := andi main_v13 main_v17
  let main_v19 : FVec F S3x128x128 .f32 := Host.absf main_arg6
  let main_cst_6 : FVec F S_ .f32 := constant S_ .f32 0x7F800000#32
  let main_v20 : FVec F S3x128x128 .f32 := broadcastInDim S3x128x128 ![] bcast_S_S3x128x128 main_cst_6
  let main_v21 : IVec S3x128x128 1 := cmpf .olt main_v19 main_v20
  let main_c_7 : IVec S_ 1 := constantI S_ 1 1#1
  let main_v22 : IVec S_ 1 := (fun x v => Host.reduce IntOp.andi x v reducesTo_S3x128x128_S_d0_1_2 h_S_) main_v21 main_c_7
  let main_v23 : IVec S_ 1 := andi main_v18 main_v22
  let main_v24 : FVec F S3x128 .f32 := Host.absf main_arg7
  let main_cst_8 : FVec F S_ .f32 := constant S_ .f32 0x7F800000#32
  let main_v25 : FVec F S3x128 .f32 := broadcastInDim S3x128 ![] bcast_S_S3x128 main_cst_8
  let main_v26 : IVec S3x128 1 := cmpf .olt main_v24 main_v25
  let main_c_9 : IVec S_ 1 := constantI S_ 1 1#1
  let main_v27 : IVec S_ 1 := (fun x v => Host.reduce IntOp.andi x v reducesTo_S3x128_S_d0_1 h_S_) main_v26 main_c_9
  let main_v28 : IVec S_ 1 := andi main_v23 main_v27
  main_v28

def fn {F : FTy → Type} [FloatOps F] (main_arg0 : FVec F S500000x117 .f32) (main_arg1 : IVec S2000000 32) (main_arg2 : IVec S2000000 32) (main_arg3 : FVec F S117x128 .f32) (main_arg4 : FVec F S128 .f32) (main_arg5 : FVec F S3x128x128 .f32) (main_arg6 : FVec F S3x128x128 .f32) (main_arg7 : FVec F S3x128 .f32) : IVec S_ 1 :=
  let main_v0 : FVec F S500000x117 .f32 := Host.absf main_arg0
  let main_cst : FVec F S_ .f32 := constant S_ .f32 0x7F800000#32
  let main_v1 : FVec F S500000x117 .f32 := broadcastInDim S500000x117 ![] bcast_S_S500000x117 main_cst
  let main_v2 : IVec S500000x117 1 := cmpf .olt main_v0 main_v1
  let main_c : IVec S_ 1 := constantI S_ 1 1#1
  let main_v3 : IVec S_ 1 := (fun x v => Host.reduce IntOp.andi x v reducesTo_S500000x117_S_d0_1 h_S_) main_v2 main_c
  let main_v4 : FVec F S117x128 .f32 := Host.absf main_arg3
  let main_cst_0 : FVec F S_ .f32 := constant S_ .f32 0x7F800000#32
  let main_v5 : FVec F S117x128 .f32 := broadcastInDim S117x128 ![] bcast_S_S117x128 main_cst_0
  let main_v6 : IVec S117x128 1 := cmpf .olt main_v4 main_v5
  let main_c_1 : IVec S_ 1 := constantI S_ 1 1#1
  let main_v7 : IVec S_ 1 := (fun x v => Host.reduce IntOp.andi x v reducesTo_S117x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S3x128x128 .f32 := Host.absf main_arg5
  let main_cst_4 : FVec F S_ .f32 := constant S_ .f32 0x7F800000#32
  let main_v15 : FVec F S3x128x128 .f32 := broadcastInDim S3x128x128 ![] bcast_S_S3x128x128 main_cst_4
  let main_v16 : IVec S3x128x128 1 := cmpf .olt main_v14 main_v15
  fn_part1 (F := F) main_arg6 main_arg7 main_v13 main_v16
-- ==== Kernel.lean ====
abbrev S500000x117 : Shape := ⟨2, ![500000, 117]⟩
abbrev S2000000 : Shape := ⟨1, ![2000000]⟩
abbrev S117x128 : Shape := ⟨2, ![117, 128]⟩
abbrev S128 : Shape := ⟨1, ![128]⟩
abbrev S3x128x128 : Shape := ⟨3, ![3, 128, 128]⟩
abbrev S3x128 : Shape := ⟨2, ![3, 128]⟩
abbrev S500000x128 : Shape := ⟨2, ![500000, 128]⟩
abbrev S10000x117 : Shape := ⟨2, ![10000, 117]⟩
abbrev S10000x128 : Shape := ⟨2, ![10000, 128]⟩
abbrev S1x128 : Shape := ⟨2, ![1, 128]⟩
abbrev S_ : Shape := ⟨0, ![]⟩
abbrev S500000 : Shape := ⟨1, ![500000]⟩
abbrev S2000000x1 : Shape := ⟨2, ![2000000, 1]⟩
abbrev S500000x1 : Shape := ⟨2, ![500000, 1]⟩
abbrev S2000000x128 : Shape := ⟨2, ![2000000, 128]⟩
abbrev S1x128x128 : Shape := ⟨3, ![1, 128, 128]⟩
abbrev S128x128 : Shape := ⟨2, ![128, 128]⟩
abbrev S256x128 : Shape := ⟨2, ![256, 128]⟩
abbrev S5000x128 : Shape := ⟨2, ![5000, 128]⟩
abbrev S5000x1 : Shape := ⟨2, ![5000, 1]⟩
abbrev S5000x256 : Shape := ⟨2, ![5000, 256]⟩

abbrev nBuf : Space → Nat
  | .hbm => 85
  | .vmem => 36
  | .smem => 0
  | _ => 0

abbrev bufTy : (tb : Table) → Fin (tcTables nBuf tb) → BufTy
  | .hbm, ⟨0, _⟩ => ⟨S500000x117, .f32⟩
  | .hbm, ⟨1, _⟩ => ⟨S2000000, .i32⟩
  | .hbm, ⟨2, _⟩ => ⟨S2000000, .i32⟩
  | .hbm, ⟨3, _⟩ => ⟨S117x128, .f32⟩
  | .hbm, ⟨4, _⟩ => ⟨S128, .f32⟩
  | .hbm, ⟨5, _⟩ => ⟨S3x128x128, .f32⟩
  | .hbm, ⟨6, _⟩ => ⟨S3x128x128, .f32⟩
  | .hbm, ⟨7, _⟩ => ⟨S3x128, .f32⟩
  | .hbm, ⟨8, _⟩ => ⟨S500000x128, .f32⟩
  | .hbm, ⟨9, _⟩ => ⟨S_, .f32⟩
  | .hbm, ⟨10, _⟩ => ⟨S2000000, .f32⟩
  | .hbm, ⟨11, _⟩ => ⟨S_, .f32⟩
  | .hbm, ⟨12, _⟩ => ⟨S500000, .f32⟩
  | .hbm, ⟨13, _⟩ => ⟨S2000000x1, .i32⟩
  | .hbm, ⟨14, _⟩ => ⟨S500000, .f32⟩
  | .hbm, ⟨15, _⟩ => ⟨S_, .f32⟩
  | .hbm, ⟨16, _⟩ => ⟨S500000, .f32⟩
  | .hbm, ⟨17, _⟩ => ⟨S500000, .f32⟩
  | .hbm, ⟨18, _⟩ => ⟨S_, .f32⟩
  | .hbm, ⟨19, _⟩ => ⟨S500000, .f32⟩
  | .hbm, ⟨20, _⟩ => ⟨S500000, .f32⟩
  | .hbm, ⟨21, _⟩ => ⟨S500000x1, .f32⟩
  | .hbm, ⟨22, _⟩ => ⟨S_, .i32⟩
  | .hbm, ⟨23, _⟩ => ⟨S2000000, .i32⟩
  | .hbm, ⟨24, _⟩ => ⟨S2000000, .i1⟩
  | .hbm, ⟨25, _⟩ => ⟨S_, .i32⟩
  | .hbm, ⟨26, _⟩ => ⟨S2000000, .i32⟩
  | .hbm, ⟨27, _⟩ => ⟨S2000000, .i32⟩
  | .hbm, ⟨28, _⟩ => ⟨S2000000, .i32⟩
  | .hbm, ⟨29, _⟩ => ⟨S2000000x1, .i32⟩
  | .hbm, ⟨30, _⟩ => ⟨S2000000x128, .f32⟩
  | .hbm, ⟨31, _⟩ => ⟨S_, .f32⟩
  | .hbm, ⟨32, _⟩ => ⟨S500000x128, .f32⟩
  | .hbm, ⟨33, _⟩ => ⟨S2000000x1, .i32⟩
  | .hbm, ⟨34, _⟩ => ⟨S500000x128, .f32⟩
  | .hbm, ⟨35, _⟩ => ⟨S1x128x128, .f32⟩
  | .hbm, ⟨36, _⟩ => ⟨S128x128, .f32⟩
  | .hbm, ⟨37, _⟩ => ⟨S1x128x128, .f32⟩
  | .hbm, ⟨38, _⟩ => ⟨S128x128, .f32⟩
  | .hbm, ⟨39, _⟩ => ⟨S256x128, .f32⟩
  | .hbm, ⟨40, _⟩ => ⟨S1x128, .f32⟩
  | .hbm, ⟨41, _⟩ => ⟨S128, .f32⟩
  | .hbm, ⟨42, _⟩ => ⟨S500000x128, .f32⟩
  | .hbm, ⟨43, _⟩ => ⟨S_, .i32⟩
  | .hbm, ⟨44, _⟩ => ⟨S2000000, .i32⟩
  | .hbm, ⟨45, _⟩ => ⟨S2000000, .i1⟩
  | .hbm, ⟨46, _⟩ => ⟨S_, .i32⟩
  | .hbm, ⟨47, _⟩ => ⟨S2000000, .i32⟩
  | .hbm, ⟨48, _⟩ => ⟨S2000000, .i32⟩
  | .hbm, ⟨49, _⟩ => ⟨S2000000, .i32⟩
  | .hbm, ⟨50, _⟩ => ⟨S2000000x1, .i32⟩
  | .hbm, ⟨51, _⟩ => ⟨S2000000x128, .f32⟩
  | .hbm, ⟨52, _⟩ => ⟨S_, .f32⟩
  | .hbm, ⟨53, _⟩ => ⟨S500000x128, .f32⟩
  | .hbm, ⟨54, _⟩ => ⟨S2000000x1, .i32⟩
  | .hbm, ⟨55, _⟩ => ⟨S500000x128, .f32⟩
  | .hbm, ⟨56, _⟩ => ⟨S1x128x128, .f32⟩
  | .hbm, ⟨57, _⟩ => ⟨S128x128, .f32⟩
  | .hbm, ⟨58, _⟩ => ⟨S1x128x128, .f32⟩
  | .hbm, ⟨59, _⟩ => ⟨S128x128, .f32⟩
  | .hbm, ⟨60, _⟩ => ⟨S256x128, .f32⟩
  | .hbm, ⟨61, _⟩ => ⟨S1x128, .f32⟩
  | .hbm, ⟨62, _⟩ => ⟨S128, .f32⟩
  | .hbm, ⟨63, _⟩ => ⟨S500000x128, .f32⟩
  | .hbm, ⟨64, _⟩ => ⟨S_, .i32⟩
  | .hbm, ⟨65, _⟩ => ⟨S2000000, .i32⟩
  | .hbm, ⟨66, _⟩ => ⟨S2000000, .i1⟩
  | .hbm, ⟨67, _⟩ => ⟨S_, .i32⟩
  | .hbm, ⟨68, _⟩ => ⟨S2000000, .i32⟩
  | .hbm, ⟨69, _⟩ => ⟨S2000000, .i32⟩
  | .hbm, ⟨70, _⟩ => ⟨S2000000, .i32⟩
  | .hbm, ⟨71, _⟩ => ⟨S2000000x1, .i32⟩
  | .hbm, ⟨72, _⟩ => ⟨S2000000x128, .f32⟩
  | .hbm, ⟨73, _⟩ => ⟨S_, .f32⟩
  | .hbm, ⟨74, _⟩ => ⟨S500000x128, .f32⟩
  | .hbm, ⟨75, _⟩ => ⟨S2000000x1, .i32⟩
  | .hbm, ⟨76, _⟩ => ⟨S500000x128, .f32⟩
  | .hbm, ⟨77, _⟩ => ⟨S1x128x128, .f32⟩
  | .hbm, ⟨78, _⟩ => ⟨S128x128, .f32⟩
  | .hbm, ⟨79, _⟩ => ⟨S1x128x128, .f32⟩
  | .hbm, ⟨80, _⟩ => ⟨S128x128, .f32⟩
  | .hbm, ⟨81, _⟩ => ⟨S256x128, .f32⟩
  | .hbm, ⟨82, _⟩ => ⟨S1x128, .f32⟩
  | .hbm, ⟨83, _⟩ => ⟨S128, .f32⟩
  | .hbm, ⟨84, _⟩ => ⟨S500000x128, .f32⟩
  | .local _ .vmem, ⟨0, _⟩ => ⟨S10000x117, .f32⟩
  | .local _ .vmem, ⟨1, _⟩ => ⟨S10000x117, .f32⟩
  | .local _ .vmem, ⟨2, _⟩ => ⟨S117x128, .f32⟩
  | .local _ .vmem, ⟨3, _⟩ => ⟨S128, .f32⟩
  | .local _ .vmem, ⟨4, _⟩ => ⟨S10000x128, .f32⟩
  | .local _ .vmem, ⟨5, _⟩ => ⟨S10000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x1, .f32⟩
  | .local _ .vmem, ⟨11, _⟩ => ⟨S5000x1, .f32⟩
  | .local _ .vmem, ⟨12, _⟩ => ⟨S256x128, .f32⟩
  | .local _ .vmem, ⟨13, _⟩ => ⟨S128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x1, .f32⟩
  | .local _ .vmem, ⟨21, _⟩ => ⟨S5000x1, .f32⟩
  | .local _ .vmem, ⟨22, _⟩ => ⟨S256x128, .f32⟩
  | .local _ .vmem, ⟨23, _⟩ => ⟨S128, .f32⟩
  | .local _ .vmem, ⟨24, _⟩ => ⟨S5000x128, .f32⟩
  | .local _ .vmem, ⟨25, _⟩ => ⟨S5000x128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S5000x128, .f32⟩
  | .local _ .vmem, ⟨30, _⟩ => ⟨S5000x1, .f32⟩
  | .local _ .vmem, ⟨31, _⟩ => ⟨S5000x1, .f32⟩
  | .local _ .vmem, ⟨32, _⟩ => ⟨S256x128, .f32⟩
  | .local _ .vmem, ⟨33, _⟩ => ⟨S128, .f32⟩
  | .local _ .vmem, ⟨34, _⟩ => ⟨S5000x128, .f32⟩
  | .local _ .vmem, ⟨35, _⟩ => ⟨S5000x128, .f32⟩
  | _, _ => ⟨S500000x117, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_cst_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_cst_2 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_c : Ref sig .tc := ⟨.hbm, 22, rfl⟩
abbrev main_v10 : Ref sig .tc := ⟨.hbm, 23, rfl⟩
abbrev main_v11 : Ref sig .tc := ⟨.hbm, 24, rfl⟩
abbrev main_c_3 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_4 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_c_5 : Ref sig .tc := ⟨.hbm, 43, rfl⟩
abbrev main_v28 : Ref sig .tc := ⟨.hbm, 44, rfl⟩
abbrev main_v29 : Ref sig .tc := ⟨.hbm, 45, rfl⟩
abbrev main_c_6 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_7 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_c_8 : Ref sig .tc := ⟨.hbm, 64, rfl⟩
abbrev main_v46 : Ref sig .tc := ⟨.hbm, 65, rfl⟩
abbrev main_v47 : Ref sig .tc := ⟨.hbm, 66, rfl⟩
abbrev main_c_9 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_cst_10 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg2_1 : Ref sig .tc := ⟨.vmem, 21, rfl⟩
abbrev cc2_stg3_0 : Ref sig .tc := ⟨.vmem, 22, rfl⟩
abbrev cc2_stg4_0 : Ref sig .tc := ⟨.vmem, 23, rfl⟩
abbrev cc2_stg5_0 : Ref sig .tc := ⟨.vmem, 24, rfl⟩
abbrev cc2_stg5_1 : Ref sig .tc := ⟨.vmem, 25, rfl⟩
abbrev cc3_stg0_0 : Ref sig .tc := ⟨.vmem, 26, rfl⟩
abbrev cc3_stg0_1 : Ref sig .tc := ⟨.vmem, 27, rfl⟩
abbrev cc3_stg1_0 : Ref sig .tc := ⟨.vmem, 28, rfl⟩
abbrev cc3_stg1_1 : Ref sig .tc := ⟨.vmem, 29, rfl⟩
abbrev cc3_stg2_0 : Ref sig .tc := ⟨.vmem, 30, rfl⟩
abbrev cc3_stg2_1 : Ref sig .tc := ⟨.vmem, 31, rfl⟩
abbrev cc3_stg3_0 : Ref sig .tc := ⟨.vmem, 32, rfl⟩
abbrev cc3_stg4_0 : Ref sig .tc := ⟨.vmem, 33, rfl⟩
abbrev cc3_stg5_0 : Ref sig .tc := ⟨.vmem, 34, rfl⟩
abbrev cc3_stg5_1 : Ref sig .tc := ⟨.vmem, 35, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem4_0 : DmaSem sig := 13
abbrev cc1_sem5_0 : DmaSem sig := 14
abbrev cc1_sem5_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem2_1 : DmaSem sig := 21
abbrev cc2_sem3_0 : DmaSem sig := 22
abbrev cc2_sem4_0 : DmaSem sig := 23
abbrev cc2_sem5_0 : DmaSem sig := 24
abbrev cc2_sem5_1 : DmaSem sig := 25
abbrev cc3_sem0_0 : DmaSem sig := 26
abbrev cc3_sem0_1 : DmaSem sig := 27
abbrev cc3_sem1_0 : DmaSem sig := 28
abbrev cc3_sem1_1 : DmaSem sig := 29
abbrev cc3_sem2_0 : DmaSem sig := 30
abbrev cc3_sem2_1 : DmaSem sig := 31
abbrev cc3_sem3_0 : DmaSem sig := 32
abbrev cc3_sem4_0 : DmaSem sig := 33
abbrev cc3_sem5_0 : DmaSem sig := 34
abbrev cc3_sem5_1 : DmaSem sig := 35

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x117 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S117x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S256x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![100], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S256x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![100], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S256x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

class Facts₀ : Prop where
  inb_S10000x117_S10000x117_0_0 : ∀ a, (![0, 0] : Fin 2 → Nat) a + S10000x117.size a ≤ S10000x117.size a
  h_S10000x117 : 0 < S10000x117.numel
  bitsLt_bf16_f32 : FTy.bits .bf16 < FTy.bits .f32
  inb_S117x128_S117x128_0_0 : ∀ a, (![0, 0] : Fin 2 → Nat) a + S117x128.size a ≤ S117x128.size a
  h_S117x128 : 0 < S117x128.numel
  inb_S128_S128_0 : ∀ a, (![0] : Fin 1 → Nat) a + S128.size a ≤ S128.size a
  h_S128 : 0 < S128.numel
  shapeCasts_S128_S1x128 : S128.ShapeCasts S1x128
  broadcasts_S1x128_S10000x128 : S1x128.Broadcasts S10000x128
  inb_S10000x128_S10000x128_0_0 : ∀ a, (![0, 0] : Fin 2 → Nat) a + S10000x128.size a ≤ S10000x128.size a
  h_S10000x128 : 0 < S10000x128.numel
  bcast_S_S2000000 : S_.BroadcastsInDim S2000000 (![] : Fin 0 → Fin S2000000.rank)
  bcast_S_S500000 : S_.BroadcastsInDim S500000 (![] : Fin 0 → Fin S500000.rank)
  bcast_S2000000_S2000000x1_0 : S2000000.BroadcastsInDim S2000000x1 (![0] : Fin 1 → Fin S2000000x1.rank)
  shapeCasts_S500000_S500000x1 : S500000.ShapeCasts S500000x1
  bcast_S_S500000x128 : S_.BroadcastsInDim S500000x128 (![] : Fin 0 → Fin S500000x128.rank)
  slices_S3x128x128_S1x128x128_0_0_0 : S3x128x128.Slices ![0, 0, 0] S1x128x128
  shapeCasts_S1x128x128_S128x128 : S1x128x128.ShapeCasts S128x128
  concatenates_S128x128_S128x128_S256x128_d0 : Shape.Concatenates [S128x128, S128x128] S256x128 0
  slices_S3x128_S1x128_0_0 : S3x128.Slices ![0, 0] S1x128
  shapeCasts_S1x128_S128 : S1x128.ShapeCasts S128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  concatenates_S5000x128_S5000x128_S5000x256_d1 : Shape.Concatenates [S5000x128, S5000x128] S5000x256 1
  inb_S256x128_S256x128_0_0 : ∀ a, (![0, 0] : Fin 2 → Nat) a + S256x128.size a ≤ S256x128.size a
  h_S256x128 : 0 < S256x128.numel
  shapeCasts_S256x128_S256x128 : S256x128.ShapeCasts S256x128
  shapeCasts_S128_S128 : S128.ShapeCasts S128
  broadcasts_S1x128_S5000x128 : S1x128.Broadcasts S5000x128
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  dot_S10000x117_S117x128_S10000x128_1_0_0_1_n_n_wf : DotDims.WF S10000x117 S117x128 S10000x128 [1] [0] [0] [1] [] []
  scatter_S500000_S2000000x1_S2000000_n_0_0_1_wf : ScatterDims.WF S500000 S2000000x1 S2000000 [] [0] [0] 1
  gather_S500000x128_S2000000x1_S2000000x128_1_0_n_n_0_1_1128_wf : GatherDims.WF S500000x128 S2000000x1 S2000000x128 [1] [0] [] [0] [] 1 ![1, 128]
  scatter_S500000x128_S2000000x1_S2000000x128_1_0_0_1_wf : ScatterDims.WF S500000x128 S2000000x1 S2000000x128 [1] [0] [0] 1
  dot_S5000x256_S256x128_S5000x128_1_0_0_1_n_n_wf : DotDims.WF S5000x256 S256x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x117.size a ≤ S500000x117.size a
  hwx0_0 : ∀ i : grid0.Coords, EltTy.bits .f32 = 32 ∨ (Rect.block (s := S500000x117) S10000x117.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S117x128.size a ≤ S117x128.size a
  hwx0_1 : ∀ i : grid0.Coords, EltTy.bits .f32 = 32 ∨ (Rect.block (s := S117x128) S117x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x128.size a ≤ S500000x128.size a
  hwx0_3 : ∀ i : grid0.Coords, EltTy.bits .f32 = 32 ∨ (Rect.block (s := S500000x128) S10000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S500000x128.size a
  hwx1_0 : ∀ i : grid1.Coords, EltTy.bits .f32 = 32 ∨ (Rect.block (s := S500000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S500000x128.size a
  hwx1_1 : ∀ i : grid1.Coords, EltTy.bits .f32 = 32 ∨ (Rect.block (s := S500000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S500000x1.size a
  hwx1_2 : ∀ i : grid1.Coords, EltTy.bits .f32 = 32 ∨ (Rect.block (s := S500000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x128.size a ≤ S256x128.size a
  hwx1_3 : ∀ i : grid1.Coords, EltTy.bits .f32 = 32 ∨ (Rect.block (s := S256x128) S256x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S500000x128.size a
  hwx1_5 : ∀ i : grid1.Coords, EltTy.bits .f32 = 32 ∨ (Rect.block (s := S500000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S500000x128.size a
  hwx2_0 : ∀ i : grid2.Coords, EltTy.bits .f32 = 32 ∨ (Rect.block (s := S500000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S500000x128.size a
  hwx2_1 : ∀ i : grid2.Coords, EltTy.bits .f32 = 32 ∨ (Rect.block (s := S500000x128) S5000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S500000x1.size a
  hwx2_2 : ∀ i : grid2.Coords, EltTy.bits .f32 = 32 ∨ (Rect.block (s := S500000x1) S5000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S256x128.size a ≤ S256x128.size a
  hwx2_3 : ∀ i : grid2.Coords, EltTy.bits .f32 = 32 ∨ (Rect.block (s := S256x128) S256x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128.size a ≤ S128.size a
  hwx2_4 : ∀ i : grid2.Coords, EltTy.bits .f32 = 32 ∨ (Rect.block (s := S128) S128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S500000x128.size a
  hwx2_5 : ∀ i : grid2.Coords, EltTy.bits .f32 = 32 ∨ (Rect.block (s := S500000x128) S5000x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S500000x128.size a
  hwx3_0 : ∀ i : grid3.Coords, EltTy.bits .f32 = 32 ∨ (Rect.block (s := S500000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S500000x128.size a
  hwx3_1 : ∀ i : grid3.Coords, EltTy.bits .f32 = 32 ∨ (Rect.block (s := S500000x128) S5000x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x1.size a ≤ S500000x1.size a
  hwx3_2 : ∀ i : grid3.Coords, EltTy.bits .f32 = 32 ∨ (Rect.block (s := S500000x1) S5000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S256x128.size a ≤ S256x128.size a
  hwx3_3 : ∀ i : grid3.Coords, EltTy.bits .f32 = 32 ∨ (Rect.block (s := S256x128) S256x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128.size a ≤ S128.size a
  hwx3_4 : ∀ i : grid3.Coords, EltTy.bits .f32 = 32 ∨ (Rect.block (s := S128) S128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x128.size a ≤ S500000x128.size a
  hwx3_5 : ∀ i : grid3.Coords, EltTy.bits .f32 = 32 ∨ (Rect.block (s := S500000x128) S5000x128.size (cc3_transform_5 i) (hinb3_5 i)).WholeWords (EltTy.packing .f32)

variable [Facts₀]

def dot_S10000x117_S117x128_S10000x128_1_0_0_1_n_n : DotDims S10000x117 S117x128 S10000x128 where
  lhsContracting := [1]
  rhsContracting := [0]
  lhsNonContracting := [0]
  rhsNonContracting := [1]
  lhsBatch := []
  rhsBatch := []
  wf := dot_S10000x117_S117x128_S10000x128_1_0_0_1_n_n_wf
def scatter_S500000_S2000000x1_S2000000_n_0_0_1 : ScatterDims S500000 S2000000x1 S2000000 where
  updateWindowDims := []
  insertedWindowDims := [0]
  scatterDimsToOperandDims := [0]
  indexVectorDim := 1
  wf := scatter_S500000_S2000000x1_S2000000_n_0_0_1_wf
def gather_S500000x128_S2000000x1_S2000000x128_1_0_n_n_0_1_1128 : GatherDims S500000x128 S2000000x1 S2000000x128 where
  offsetDims := [1]
  collapsedSliceDims := [0]
  operandBatchingDims := []
  startIndicesBatchingDims := []
  startIndexMap := [0]
  indexVectorDim := 1
  sliceSizes := ![1, 128]
  wf := gather_S500000x128_S2000000x1_S2000000x128_1_0_n_n_0_1_1128_wf
def scatter_S500000x128_S2000000x1_S2000000x128_1_0_0_1 : ScatterDims S500000x128 S2000000x1 S2000000x128 where
  updateWindowDims := [1]
  insertedWindowDims := [0]
  scatterDimsToOperandDims := [0]
  indexVectorDim := 1
  wf := scatter_S500000x128_S2000000x1_S2000000x128_1_0_0_1_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf

abbrev win0_0 : Pipeline.Window sig grid0 :=
  Pipeline.Window.ofSpec (Memref.whole main_arg0) S10000x117.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S117x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S10000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v19) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v9) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v24) S256x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v26) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v27) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v27) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v37) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v9) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v42) S256x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v44) S128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v45) S5000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v45) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v55) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v9) S5000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v60) S256x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v62) S128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v63) S5000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S500000x117 : Shape := ⟨2, ![500000, 117]⟩
abbrev S2000000 : Shape := ⟨1, ![2000000]⟩
abbrev S117x128 : Shape := ⟨2, ![117, 128]⟩
abbrev S128 : Shape := ⟨1, ![128]⟩
abbrev S3x128x128 : Shape := ⟨3, ![3, 128, 128]⟩
abbrev S3x128 : Shape := ⟨2, ![3, 128]⟩
abbrev S500000x128 : Shape := ⟨2, ![500000, 128]⟩
abbrev S1x128 : Shape := ⟨2, ![1, 128]⟩
abbrev S_ : Shape := ⟨0, ![]⟩
abbrev S500000 : Shape := ⟨1, ![500000]⟩
abbrev S2000000x1 : Shape := ⟨2, ![2000000, 1]⟩
abbrev S500000x1 : Shape := ⟨2, ![500000, 1]⟩
abbrev S2000000x128 : Shape := ⟨2, ![2000000, 128]⟩
abbrev S1x128x128 : Shape := ⟨3, ![1, 128, 128]⟩
abbrev S128x128 : Shape := ⟨2, ![128, 128]⟩

abbrev nBuf : Space → Nat
  | .hbm => 116
  | .vmem => 0
  | .smem => 0
  | _ => 0

abbrev bufTy : (tb : Table) → Fin (tcTables nBuf tb) → BufTy
  | .hbm, ⟨0, _⟩ => ⟨S500000x117, .f32⟩
  | .hbm, ⟨1, _⟩ => ⟨S2000000, .i32⟩
  | .hbm, ⟨2, _⟩ => ⟨S2000000, .i32⟩
  | .hbm, ⟨3, _⟩ => ⟨S117x128, .f32⟩
  | .hbm, ⟨4, _⟩ => ⟨S128, .f32⟩
  | .hbm, ⟨5, _⟩ => ⟨S3x128x128, .f32⟩
  | .hbm, ⟨6, _⟩ => ⟨S3x128x128, .f32⟩
  | .hbm, ⟨7, _⟩ => ⟨S3x128, .f32⟩
  | .hbm, ⟨8, _⟩ => ⟨S500000x128, .f32⟩
  | .hbm, ⟨9, _⟩ => ⟨S1x128, .f32⟩
  | .hbm, ⟨10, _⟩ => ⟨S500000x128, .f32⟩
  | .hbm, ⟨11, _⟩ => ⟨S500000x128, .f32⟩
  | .hbm, ⟨12, _⟩ => ⟨S500000x128, .f32⟩
  | .hbm, ⟨13, _⟩ => ⟨S_, .f32⟩
  | .hbm, ⟨14, _⟩ => ⟨S2000000, .f32⟩
  | .hbm, ⟨15, _⟩ => ⟨S_, .f32⟩
  | .hbm, ⟨16, _⟩ => ⟨S500000, .f32⟩
  | .hbm, ⟨17, _⟩ => ⟨S2000000x1, .i32⟩
  | .hbm, ⟨18, _⟩ => ⟨S500000, .f32⟩
  | .hbm, ⟨19, _⟩ => ⟨S_, .f32⟩
  | .hbm, ⟨20, _⟩ => ⟨S500000, .f32⟩
  | .hbm, ⟨21, _⟩ => ⟨S500000, .f32⟩
  | .hbm, ⟨22, _⟩ => ⟨S_, .f32⟩
  | .hbm, ⟨23, _⟩ => ⟨S500000, .f32⟩
  | .hbm, ⟨24, _⟩ => ⟨S500000, .f32⟩
  | .hbm, ⟨25, _⟩ => ⟨S500000x1, .f32⟩
  | .hbm, ⟨26, _⟩ => ⟨S_, .i32⟩
  | .hbm, ⟨27, _⟩ => ⟨S2000000, .i32⟩
  | .hbm, ⟨28, _⟩ => ⟨S2000000, .i1⟩
  | .hbm, ⟨29, _⟩ => ⟨S_, .i32⟩
  | .hbm, ⟨30, _⟩ => ⟨S2000000, .i32⟩
  | .hbm, ⟨31, _⟩ => ⟨S2000000, .i32⟩
  | .hbm, ⟨32, _⟩ => ⟨S2000000, .i32⟩
  | .hbm, ⟨33, _⟩ => ⟨S2000000x1, .i32⟩
  | .hbm, ⟨34, _⟩ => ⟨S2000000x128, .f32⟩
  | .hbm, ⟨35, _⟩ => ⟨S_, .f32⟩
  | .hbm, ⟨36, _⟩ => ⟨S500000x128, .f32⟩
  | .hbm, ⟨37, _⟩ => ⟨S2000000x1, .i32⟩
  | .hbm, ⟨38, _⟩ => ⟨S500000x128, .f32⟩
  | .hbm, ⟨39, _⟩ => ⟨S500000x128, .f32⟩
  | .hbm, ⟨40, _⟩ => ⟨S500000x128, .f32⟩
  | .hbm, ⟨41, _⟩ => ⟨S1x128x128, .f32⟩
  | .hbm, ⟨42, _⟩ => ⟨S128x128, .f32⟩
  | .hbm, ⟨43, _⟩ => ⟨S500000x128, .f32⟩
  | .hbm, ⟨44, _⟩ => ⟨S1x128x128, .f32⟩
  | .hbm, ⟨45, _⟩ => ⟨S128x128, .f32⟩
  | .hbm, ⟨46, _⟩ => ⟨S500000x128, .f32⟩
  | .hbm, ⟨47, _⟩ => ⟨S500000x128, .f32⟩
  | .hbm, ⟨48, _⟩ => ⟨S1x128, .f32⟩
  | .hbm, ⟨49, _⟩ => ⟨S128, .f32⟩
  | .hbm, ⟨50, _⟩ => ⟨S1x128, .f32⟩
  | .hbm, ⟨51, _⟩ => ⟨S500000x128, .f32⟩
  | .hbm, ⟨52, _⟩ => ⟨S500000x128, .f32⟩
  | .hbm, ⟨53, _⟩ => ⟨S_, .f32⟩
  | .hbm, ⟨54, _⟩ => ⟨S500000x128, .f32⟩
  | .hbm, ⟨55, _⟩ => ⟨S500000x128, .f32⟩
  | .hbm, ⟨56, _⟩ => ⟨S_, .i32⟩
  | .hbm, ⟨57, _⟩ => ⟨S2000000, .i32⟩
  | .hbm, ⟨58, _⟩ => ⟨S2000000, .i1⟩
  | .hbm, ⟨59, _⟩ => ⟨S_, .i32⟩
  | .hbm, ⟨60, _⟩ => ⟨S2000000, .i32⟩
  | .hbm, ⟨61, _⟩ => ⟨S2000000, .i32⟩
  | .hbm, ⟨62, _⟩ => ⟨S2000000, .i32⟩
  | .hbm, ⟨63, _⟩ => ⟨S2000000x1, .i32⟩
  | .hbm, ⟨64, _⟩ => ⟨S2000000x128, .f32⟩
  | .hbm, ⟨65, _⟩ => ⟨S_, .f32⟩
  | .hbm, ⟨66, _⟩ => ⟨S500000x128, .f32⟩
  | .hbm, ⟨67, _⟩ => ⟨S2000000x1, .i32⟩
  | .hbm, ⟨68, _⟩ => ⟨S500000x128, .f32⟩
  | .hbm, ⟨69, _⟩ => ⟨S500000x128, .f32⟩
  | .hbm, ⟨70, _⟩ => ⟨S500000x128, .f32⟩
  | .hbm, ⟨71, _⟩ => ⟨S1x128x128, .f32⟩
  | .hbm, ⟨72, _⟩ => ⟨S128x128, .f32⟩
  | .hbm, ⟨73, _⟩ => ⟨S500000x128, .f32⟩
  | .hbm, ⟨74, _⟩ => ⟨S1x128x128, .f32⟩
  | .hbm, ⟨75, _⟩ => ⟨S128x128, .f32⟩
  | .hbm, ⟨76, _⟩ => ⟨S500000x128, .f32⟩
  | .hbm, ⟨77, _⟩ => ⟨S500000x128, .f32⟩
  | .hbm, ⟨78, _⟩ => ⟨S1x128, .f32⟩
  | .hbm, ⟨79, _⟩ => ⟨S128, .f32⟩
  | .hbm, ⟨80, _⟩ => ⟨S1x128, .f32⟩
  | .hbm, ⟨81, _⟩ => ⟨S500000x128, .f32⟩
  | .hbm, ⟨82, _⟩ => ⟨S500000x128, .f32⟩
  | .hbm, ⟨83, _⟩ => ⟨S_, .f32⟩
  | .hbm, ⟨84, _⟩ => ⟨S500000x128, .f32⟩
  | .hbm, ⟨85, _⟩ => ⟨S500000x128, .f32⟩
  | .hbm, ⟨86, _⟩ => ⟨S_, .i32⟩
  | .hbm, ⟨87, _⟩ => ⟨S2000000, .i32⟩
  | .hbm, ⟨88, _⟩ => ⟨S2000000, .i1⟩
  | .hbm, ⟨89, _⟩ => ⟨S_, .i32⟩
  | .hbm, ⟨90, _⟩ => ⟨S2000000, .i32⟩
  | .hbm, ⟨91, _⟩ => ⟨S2000000, .i32⟩
  | .hbm, ⟨92, _⟩ => ⟨S2000000, .i32⟩
  | .hbm, ⟨93, _⟩ => ⟨S2000000x1, .i32⟩
  | .hbm, ⟨94, _⟩ => ⟨S2000000x128, .f32⟩
  | .hbm, ⟨95, _⟩ => ⟨S_, .f32⟩
  | .hbm, ⟨96, _⟩ => ⟨S500000x128, .f32⟩
  | .hbm, ⟨97, _⟩ => ⟨S2000000x1, .i32⟩
  | .hbm, ⟨98, _⟩ => ⟨S500000x128, .f32⟩
  | .hbm, ⟨99, _⟩ => ⟨S500000x128, .f32⟩
  | .hbm, ⟨100, _⟩ => ⟨S500000x128, .f32⟩
  | .hbm, ⟨101, _⟩ => ⟨S1x128x128, .f32⟩
  | .hbm, ⟨102, _⟩ => ⟨S128x128, .f32⟩
  | .hbm, ⟨103, _⟩ => ⟨S500000x128, .f32⟩
  | .hbm, ⟨104, _⟩ => ⟨S1x128x128, .f32⟩
  | .hbm, ⟨105, _⟩ => ⟨S128x128, .f32⟩
  | .hbm, ⟨106, _⟩ => ⟨S500000x128, .f32⟩
  | .hbm, ⟨107, _⟩ => ⟨S500000x128, .f32⟩
  | .hbm, ⟨108, _⟩ => ⟨S1x128, .f32⟩
  | .hbm, ⟨109, _⟩ => ⟨S128, .f32⟩
  | .hbm, ⟨110, _⟩ => ⟨S1x128, .f32⟩
  | .hbm, ⟨111, _⟩ => ⟨S500000x128, .f32⟩
  | .hbm, ⟨112, _⟩ => ⟨S500000x128, .f32⟩
  | .hbm, ⟨113, _⟩ => ⟨S_, .f32⟩
  | .hbm, ⟨114, _⟩ => ⟨S500000x128, .f32⟩
  | .hbm, ⟨115, _⟩ => ⟨S500000x128, .f32⟩
  | _, _ => ⟨S500000x117, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_cst_2 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_c : Ref sig .tc := ⟨.hbm, 26, rfl⟩
abbrev main_v14 : Ref sig .tc := ⟨.hbm, 27, rfl⟩
abbrev main_v15 : Ref sig .tc := ⟨.hbm, 28, rfl⟩
abbrev main_c_3 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_4 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_call0_cst : Ref sig .tc := ⟨.hbm, 53, rfl⟩
abbrev main_call0_v0 : Ref sig .tc := ⟨.hbm, 54, rfl⟩
abbrev main_v38 : Ref sig .tc := ⟨.hbm, 55, rfl⟩
abbrev main_c_5 : Ref sig .tc := ⟨.hbm, 56, rfl⟩
abbrev main_v39 : Ref sig .tc := ⟨.hbm, 57, rfl⟩
abbrev main_v40 : Ref sig .tc := ⟨.hbm, 58, rfl⟩
abbrev main_c_6 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_cst_7 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_call1_cst : Ref sig .tc := ⟨.hbm, 83, rfl⟩
abbrev main_call1_v0 : Ref sig .tc := ⟨.hbm, 84, rfl⟩
abbrev main_v63 : Ref sig .tc := ⟨.hbm, 85, rfl⟩
abbrev main_c_8 : Ref sig .tc := ⟨.hbm, 86, rfl⟩
abbrev main_v64 : Ref sig .tc := ⟨.hbm, 87, rfl⟩
abbrev main_v65 : Ref sig .tc := ⟨.hbm, 88, rfl⟩
abbrev main_c_9 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_cst_10 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_call2_cst : Ref sig .tc := ⟨.hbm, 113, rfl⟩
abbrev main_call2_v0 : Ref sig .tc := ⟨.hbm, 114, rfl⟩
abbrev main_v88 : Ref sig .tc := ⟨.hbm, 115, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S500000x128_0_1 : S1x128.BroadcastsInDim S500000x128 (![0, 1] : Fin 2 → Fin S500000x128.rank)
  bcast_S_S2000000 : S_.BroadcastsInDim S2000000 (![] : Fin 0 → Fin S2000000.rank)
  bcast_S_S500000 : S_.BroadcastsInDim S500000 (![] : Fin 0 → Fin S500000.rank)
  bcast_S2000000_S2000000x1_0 : S2000000.BroadcastsInDim S2000000x1 (![0] : Fin 1 → Fin S2000000x1.rank)
  bcast_S500000_S500000x1_0 : S500000.BroadcastsInDim S500000x1 (![0] : Fin 1 → Fin S500000x1.rank)
  bcast_S_S500000x128 : S_.BroadcastsInDim S500000x128 (![] : Fin 0 → Fin S500000x128.rank)
  bcast_S500000x1_S500000x128_0_1 : S500000x1.BroadcastsInDim S500000x128 (![0, 1] : Fin 2 → Fin S500000x128.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  dot_S500000x117_S117x128_S500000x128_1_0_0_1_n_n_wf : DotDims.WF S500000x117 S117x128 S500000x128 [1] [0] [0] [1] [] []
  scatter_S500000_S2000000x1_S2000000_n_0_0_1_wf : ScatterDims.WF S500000 S2000000x1 S2000000 [] [0] [0] 1
  gather_S500000x128_S2000000x1_S2000000x128_1_0_n_n_0_1_1128_wf : GatherDims.WF S500000x128 S2000000x1 S2000000x128 [1] [0] [] [0] [] 1 ![1, 128]
  scatter_S500000x128_S2000000x1_S2000000x128_1_0_0_1_wf : ScatterDims.WF S500000x128 S2000000x1 S2000000x128 [1] [0] [0] 1
  dot_S500000x128_S128x128_S500000x128_1_0_0_1_n_n_wf : DotDims.WF S500000x128 S128x128 S500000x128 [1] [0] [0] [1] [] []

variable [Facts₀]

def dot_S500000x117_S117x128_S500000x128_1_0_0_1_n_n : DotDims S500000x117 S117x128 S500000x128 where
  lhsContracting := [1]
  rhsContracting := [0]
  lhsNonContracting := [0]
  rhsNonContracting := [1]
  lhsBatch := []
  rhsBatch := []
  wf := dot_S500000x117_S117x128_S500000x128_1_0_0_1_n_n_wf
def scatter_S500000_S2000000x1_S2000000_n_0_0_1 : ScatterDims S500000 S2000000x1 S2000000 where
  updateWindowDims := []
  insertedWindowDims := [0]
  scatterDimsToOperandDims := [0]
  indexVectorDim := 1
  wf := scatter_S500000_S2000000x1_S2000000_n_0_0_1_wf
def gather_S500000x128_S2000000x1_S2000000x128_1_0_n_n_0_1_1128 : GatherDims S500000x128 S2000000x1 S2000000x128 where
  offsetDims := [1]
  collapsedSliceDims := [0]
  operandBatchingDims := []
  startIndicesBatchingDims := []
  startIndexMap := [0]
  indexVectorDim := 1
  sliceSizes := ![1, 128]
  wf := gather_S500000x128_S2000000x1_S2000000x128_1_0_n_n_0_1_1128_wf
def scatter_S500000x128_S2000000x1_S2000000x128_1_0_0_1 : ScatterDims S500000x128 S2000000x1 S2000000x128 where
  updateWindowDims := [1]
  insertedWindowDims := [0]
  scatterDimsToOperandDims := [0]
  indexVectorDim := 1
  wf := scatter_S500000x128_S2000000x1_S2000000x128_1_0_0_1_wf
def dot_S500000x128_S128x128_S500000x128_1_0_0_1_n_n : DotDims S500000x128 S128x128 S500000x128 where
  lhsContracting := [1]
  rhsContracting := [0]
  lhsNonContracting := [0]
  rhsNonContracting := [1]
  lhsBatch := []
  rhsBatch := []
  wf := dot_S500000x128_S128x128_S500000x128_1_0_0_1_n_n_wf

class Facts : Prop extends Facts₀ where

variable [Facts]
-- ==== Proof.Sage.lean ====
/-
  The mathematics of a three-layer mean-aggregating graph network on the extended reals, index by index.

  A node's features are a row. The input projection sends row p of x to tanh (x_p · W + b). One layer sends
  the rows h_p (the node's own features) and s_p (the sum of its in-neighbours' features), with the node's
  inverse in-degree d_p, to max (h_p · W_self + (s_p d_p) · W_neigh + b, 0). A program may instead lay the two
  rows side by side, (h_p | s_p d_p), and contract the 256 entries once against the two weight matrices stacked
  one above the other: the one sum over 256 positions is the sum over the first 128 plus the sum over the
  last 128, by commutativity and associativity of addition alone, so the two forms agree on every extended
  real, the infinities included.
-/
import Idealize.ShloMosaic.Lib.ValueIdx
import Idealize.ShloMosaic.PureOps.Ideal.Laws

noncomputable section

namespace Cert.Sage

open Idealize.ShloMosaic Idealize.ShloMosaic.ValueIdx
open scoped BigOperators

/-- An a × b array of extended reals. -/
abbrev Mat (a b : Nat) : Type := (⟨2, ![a, b]⟩ : Shape).Idx → EReal
/-- A length-a vector of extended reals. -/
abbrev Row (a : Nat) : Type := (⟨1, ![a]⟩ : Shape).Idx → EReal

variable {n f : Nat}

/-- The input projection at (p, q): tanh of row p of x against column q of w, plus b q. -/
def projAt (x : Mat n f) (w : Mat f 128) (b : Row 128) (p : Fin n) (q : Fin 128) : EReal :=
  Ideal.tanh ((∑ k : Fin f, x (ix2 p k) * w (ix2 k q)) + b (ix1 q))

/-- The input projection as an array. -/
def proj (x : Mat n f) (w : Mat f 128) (b : Row 128) : Mat n 128 := fun i => projAt x w b (i 0) (i 1)

theorem proj_apply (x : Mat n f) (w : Mat f 128) (b : Row 128) (p : Fin n) (q : Fin 128) :
    proj x w b (ix2 p q) = projAt x w b p q := rfl

/-- One layer at (p, q): the node's own row against W_self, the neighbour sum scaled by the inverse degree
    against W_neigh, the bias, and the positive part. -/
def layerAt (h s : Mat n 128) (d : Row n) (ws wn : Mat 128 128) (b : Row 128) (p : Fin n) (q : Fin 128) : EReal :=
  max (((∑ k : Fin 128, h (ix2 p k) * ws (ix2 k q)) + ∑ k : Fin 128, (s (ix2 p k) * d (ix1 p)) * wn (ix2 k q))
    + b (ix1 q)) 0

/-- One layer as an array. -/
def layer (h s : Mat n 128) (d : Row n) (ws wn : Mat 128 128) (b : Row 128) : Mat n 128 :=
  fun i => layerAt h s d ws wn b (i 0) (i 1)

theorem layer_apply (h s : Mat n 128) (d : Row n) (ws wn : Mat 128 128) (b : Row 128) (p : Fin n) (q : Fin 128) :
    layer h s d ws wn b (ix2 p q) = layerAt h s d ws wn b p q := rfl

/-- The upper 128 rows of a 256-row array. -/
def top (w : Mat 256 128) : Mat 128 128 := fun i => w (ix2 (⟨(i 0).val, by have := (i 0).isLt; simp at this; omega⟩ : Fin 256) (i 1))
/-- The lower 128 rows of a 256-row array. -/
def bot (w : Mat 256 128) : Mat 128 128 := fun i => w (ix2 (⟨128 + (i 0).val, by have := (i 0).isLt; simp at this; omega⟩ : Fin 256) (i 1))

theorem top_apply (w : Mat 256 128) (k q : Fin 128) : top w (ix2 k q) = w (ix2 (⟨k.val, by omega⟩ : Fin 256) q) := rfl
theorem bot_apply (w : Mat 256 128) (k q : Fin 128) : bot w (ix2 k q) = w (ix2 (⟨128 + k.val, by omega⟩ : Fin 256) q) := rfl

/-- The single column of an a × 1 array, as a vector. -/
def colVec {a : Nat} (c : Mat a 1) : Row a := fun i => c (ix2 (i 0) (0 : Fin 1))

theorem colVec_apply {a : Nat} (c : Mat a 1) (p : Fin a) : colVec c (ix1 p) = c (ix2 p (0 : Fin 1)) := rfl

/-- A sum over 256 positions is the sum over the first 128 plus the sum over the last 128. -/
theorem sum_split (g : Fin 256 → EReal) :
    ∑ k : Fin 256, g k = (∑ k : Fin 128, g ⟨k.val, by omega⟩) + ∑ k : Fin 128, g ⟨128 + k.val, by omega⟩ :=
  Fin.sum_univ_add (a := 128) (b := 128) (f := g)

/-- The fused form of a layer at (p, q): the row (h_p | s_p d_p) against the stacked weights in one sum over
    256 positions is the layer. `cat` is the fused row, `w` the stacked weights. -/
theorem fused_eq (h s : Mat n 128) (d : Row n) (w : Mat 256 128) (b : Row 128) (p : Fin n) (q : Fin 128)
    (cat : Fin 256 → EReal)
    (hl : ∀ k : Fin 128, cat ⟨k.val, by omega⟩ = h (ix2 p k))
    (hr : ∀ k : Fin 128, cat ⟨128 + k.val, by omega⟩ = s (ix2 p k) * d (ix1 p)) :
    max ((∑ k : Fin 256, cat k * w (ix2 k q)) + b (ix1 q)) 0 = layerAt h s d (top w) (bot w) b p q := by
  unfold layerAt
  rw [sum_split]
  simp only [hl, hr, top_apply, bot_apply]

end Cert.Sage

end
-- ==== Proof.LibPlainDot.lean ====
/-
  A plain matrix product read at an index.

  The dimension numbers of an [a, c] × [c, b] → [a, b] product contract the left operand's axis 1 with the right
  operand's axis 0 and have no batch axis. At result index (p, q) and contraction position k the left operand is
  read at (p, k) and the right operand at (k, q), so the sum over the contraction shape's one-axis index set is the
  sum over k : Fin c of lhs (p, k) * rhs (k, q) — in any commutative additive monoid with a product, the extended
  reals included. The statement is over variable extents; a printed record with these six lists is this one by
  reflexivity.
-/
import Idealize.ShloMosaic.Lib.ValueIdx
import Idealize.ShloMosaic.PureOps.Ideal.Laws

noncomputable section

namespace Cert.Lib.PlainDot

open Idealize.ShloMosaic Idealize.ShloMosaic.ValueIdx
open scoped BigOperators

variable {a c b : Nat}

/-- The dimension numbers of the plain product [a, c] × [c, b] → [a, b]. -/
abbrev dims (wf : DotDims.WF ⟨2, ![a, c]⟩ ⟨2, ![c, b]⟩ ⟨2, ![a, b]⟩ [1] [0] [0] [1] [] []) :
    DotDims ⟨2, ![a, c]⟩ ⟨2, ![c, b]⟩ ⟨2, ![a, b]⟩ where
  lhsContracting := [1]
  rhsContracting := [0]
  lhsNonContracting := [0]
  rhsNonContracting := [1]
  lhsBatch := []
  rhsBatch := []
  wf := wf

variable (wf : DotDims.WF ⟨2, ![a, c]⟩ ⟨2, ![c, b]⟩ ⟨2, ![a, b]⟩ [1] [0] [0] [1] [] [])

/-- The left operand's row is the result's row. -/
theorem lhs_row (i : (⟨2, ![a, b]⟩ : Shape).Idx) (k : (dims wf).contr.Idx) :
    ((dims wf).lhsIdx i k 0).val = (i 0).val := by
  unfold DotDims.lhsIdx
  rw [dif_neg (show ¬(0 : Fin 2) ∈ (dims wf).lhsBatch from List.not_mem_nil),
    dif_pos (show (0 : Fin 2) ∈ (dims wf).lhsNonContracting from List.mem_singleton.mpr rfl)]
  rfl

/-- The left operand's column is the contraction position. -/
theorem lhs_col (i : (⟨2, ![a, b]⟩ : Shape).Idx) (k : (dims wf).contr.Idx) :
    ((dims wf).lhsIdx i k 1).val = (k ⟨0, Nat.one_pos⟩).val :=
  (dims wf).lhsIdx_val_of_single rfl i k

/-- The right operand's row is the contraction position. -/
theorem rhs_row (i : (⟨2, ![a, b]⟩ : Shape).Idx) (k : (dims wf).contr.Idx) :
    ((dims wf).rhsIdx i k 0).val = (k ⟨0, Nat.one_pos⟩).val :=
  (dims wf).rhsIdx_val_of_single rfl i k

/-- The right operand's column is the result's column. -/
theorem rhs_col (i : (⟨2, ![a, b]⟩ : Shape).Idx) (k : (dims wf).contr.Idx) :
    ((dims wf).rhsIdx i k 1).val = (i 1).val := by
  unfold DotDims.rhsIdx
  rw [dif_neg (show ¬(1 : Fin 2) ∈ (dims wf).rhsBatch from List.not_mem_nil),
    dif_pos (show (1 : Fin 2) ∈ (dims wf).rhsNonContracting from List.mem_singleton.mpr rfl)]
  rfl

/-- The product's sum at (p, q): over k, the left operand at (p, k) times the right operand at (k, q). -/
theorem sum_apply {M : Type*} [AddCommMonoid M] [Mul M] (lhs : (⟨2, ![a, c]⟩ : Shape).Idx → M)
    (rhs : (⟨2, ![c, b]⟩ : Shape).Idx → M) (p : Fin a) (q : Fin b) :
    ∑ k : (dims wf).contr.Idx, lhs ((dims wf).lhsIdx (ix2 p q) k) * rhs ((dims wf).rhsIdx (ix2 p q) k)
      = ∑ k : Fin c, lhs (ix2 p k) * rhs (ix2 k q) := by
  rw [← Equiv.sum_comp (contrEquiv1 (dims wf) c rfl rfl).symm]
  refine Finset.sum_congr rfl fun k _ => ?_
  have hk := contrEquiv1_symm_val (dims wf) c rfl rfl k
  have el : (dims wf).lhsIdx (ix2 p q) ((contrEquiv1 (dims wf) c rfl rfl).symm k) = ix2 p k :=
    funext fun ax => Fin.ext (by
      match ax with
      | ⟨0, _⟩ => exact lhs_row wf _ _
      | ⟨1, _⟩ => exact (lhs_col wf _ _).trans hk)
  have er : (dims wf).rhsIdx (ix2 p q) ((contrEquiv1 (dims wf) c rfl rfl).symm k) = ix2 k q :=
    funext fun ax => Fin.ext (by
      match ax with
      | ⟨0, _⟩ => exact (rhs_row wf _ _).trans hk
      | ⟨1, _⟩ => exact rhs_col wf _ _)
  rw [el, er]

/-- A kernel's product into a zero accumulator, at the exact values, read at (p, q). -/
theorem matmul_zero_apply {φ₁ φ₂ : FTy} (prec : Option ContractPrecision) (lhs : FVec Ideal ⟨2, ![a, c]⟩ φ₁)
    (rhs : FVec Ideal ⟨2, ![c, b]⟩ φ₂) (p : Fin a) (q : Fin b) :
    matmul (dims wf) prec lhs rhs (constant ⟨2, ![a, b]⟩ .f32 0x00000000#32) (ix2 p q)
      = ∑ k : Fin c, lhs (ix2 p k) * rhs (ix2 k q) :=
  (Ideal.matmul_constant_zero_apply (dims wf) prec lhs rhs (ix2 p q)).trans (sum_apply wf lhs rhs p q)

/-- The host's product, at the exact values, read at (p, q). -/
theorem dotGeneral_apply {φ₁ φ₂ : FTy} (prec : Option ContractPrecision) (lhs : FVec Ideal ⟨2, ![a, c]⟩ φ₁)
    (rhs : FVec Ideal ⟨2, ![c, b]⟩ φ₂) (p : Fin a) (q : Fin b) :
    Host.dotGeneral (dims wf) prec lhs rhs (ix2 p q) = ∑ k : Fin c, lhs (ix2 p k) * rhs (ix2 k q) :=
  (Ideal.dotGeneral_apply (dims wf) prec _ lhs rhs (ix2 p q)).trans (sum_apply wf lhs rhs p q)

end Cert.Lib.PlainDot

end
-- ==== Proof.LibRowBroadcasts.lean ====
/-
  Rows, columns and bias vectors broadcast, read at an index.

  The complements of the keepdims column forms: a `1 × b` row broadcast down `a` rows as a vector broadcast and as a
  dimension broadcast, an `a × 1` column broadcast across `c` columns as a dimension broadcast — each reads, at
  `(p, q)`, the operand at its one free coordinate — and the fact that a length-`b` vector cast to a `1 × b` row is the
  same array as that vector broadcast along dimension 1 (two spellings of "add a leading unit axis"). For any element
  type and any extents.
-/
import Idealize.ShloMosaic.Lib.Pipeline.Value
import Idealize.ShloMosaic.Lib.ValueIdx

noncomputable section

namespace Cert.Lib.Rows

open Idealize.ShloMosaic Idealize.ShloMosaic.ValueIdx

variable {a c b : Nat}

/-- A `1 × b` row broadcast down the rows reads, at `(p, q)`, the row at `q`. -/
theorem bcastRow_apply {α : Type} (v : (⟨2, ![1, b]⟩ : Shape).Idx → α)
    (h : (⟨2, ![1, b]⟩ : Shape).Broadcasts ⟨2, ![a, b]⟩) (p : Fin a) (q : Fin b) :
    broadcastTo ⟨2, ![a, b]⟩ v h (ix2 p q) = v (ix2 (0 : Fin 1) q) := by
  refine broadcastTo_apply v h (ix2 p q) (ix2 (0 : Fin 1) q) fun ax => ?_
  match ax with
  | ⟨0, _⟩ =>
    show (0 : Nat) = if (1 : Nat) = 1 then 0 else p.val
    rw [if_pos rfl]
  | ⟨1, _⟩ =>
    show q.val = if b = 1 then 0 else q.val
    split
    · have := q.isLt; omega
    · rfl

/-- An `a × 1` column broadcast in dimensions `[0, 1]` reads, at `(p, k)`, the column at `p`. -/
theorem dimCol_apply {α : Type} (v : (⟨2, ![a, 1]⟩ : Shape).Idx → α)
    (h : (⟨2, ![a, 1]⟩ : Shape).BroadcastsInDim ⟨2, ![a, c]⟩ ![0, 1]) (p : Fin a) (k : Fin c) :
    broadcastInDim ⟨2, ![a, c]⟩ ![0, 1] h v (ix2 p k) = v (ix2 p (0 : Fin 1)) := by
  refine broadcastInDim_apply _ h v (ix2 p k) (ix2 p (0 : Fin 1)) fun ax => ?_
  match ax with
  | ⟨0, _⟩ =>
    show p.val = if a = 1 then 0 else p.val
    split
    · have := p.isLt; omega
    · rfl
  | ⟨1, _⟩ =>
    show (0 : Nat) = if (1 : Nat) = 1 then 0 else k.val
    rw [if_pos rfl]

/-- A `1 × b` row broadcast in dimensions `[0, 1]` reads, at `(p, q)`, the row at `q`. -/
theorem dimRow_apply {α : Type} (v : (⟨2, ![1, b]⟩ : Shape).Idx → α)
    (h : (⟨2, ![1, b]⟩ : Shape).BroadcastsInDim ⟨2, ![a, b]⟩ ![0, 1]) (p : Fin a) (q : Fin b) :
    broadcastInDim ⟨2, ![a, b]⟩ ![0, 1] h v (ix2 p q) = v (ix2 (0 : Fin 1) q) := by
  refine broadcastInDim_apply _ h v (ix2 p q) (ix2 (0 : Fin 1) q) fun ax => ?_
  match ax with
  | ⟨0, _⟩ =>
    show (0 : Nat) = if (1 : Nat) = 1 then 0 else p.val
    rw [if_pos rfl]
  | ⟨1, _⟩ =>
    show q.val = if b = 1 then 0 else q.val
    split
    · have := q.isLt; omega
    · rfl

/-- A length-`b` vector cast to a `1 × b` row is the vector broadcast along dimension 1: both read, at `(·, q)`, the
    vector at `q`. -/
theorem castRow_eq_dimRow {α : Type} (v : (⟨1, ![b]⟩ : Shape).Idx → α)
    (hc : (⟨1, ![b]⟩ : Shape).ShapeCasts ⟨2, ![1, b]⟩)
    (hb : (⟨1, ![b]⟩ : Shape).BroadcastsInDim ⟨2, ![1, b]⟩ ![1]) :
    shapeCast ⟨2, ![1, b]⟩ v hc = broadcastInDim ⟨2, ![1, b]⟩ ![1] hb v := by
  funext j
  obtain ⟨u, q, rfl⟩ : ∃ (u : Fin 1) (q : Fin b), j = ix2 u q := ⟨j 0, j 1, eq_ix2 j⟩
  have hu : u.val = 0 := by omega
  have e1 : shapeCast ⟨2, ![1, b]⟩ v hc (ix2 u q) = v (ix1 q) :=
    shapeCast_apply v hc _ _ (by
      rw [Shape.rowMajor_val_two, Shape.rowMajor_val_one]
      show q.val = u.val * b + q.val
      rw [hu, Nat.zero_mul, Nat.zero_add])
  have e2 : broadcastInDim ⟨2, ![1, b]⟩ ![1] hb v (ix2 u q) = v (ix1 q) :=
    broadcastInDim_apply _ hb v (ix2 u q) (ix1 q) fun ax => by
      match ax with
      | ⟨0, _⟩ =>
        show q.val = if b = 1 then 0 else q.val
        split
        · have := q.isLt; omega
        · rfl
  rw [e1, e2]

end Cert.Lib.Rows

end
-- ==== Proof.LibKeepdims.lean ====
/-
  Keepdims columns read at an index.

  A reduction along the rows of an `a × b` array that keeps the reduced axis leaves an `a × 1` column: the length-`a`
  vector of row statistics cast to that shape holds, at `(i, ·)`, the vector's entry `i` (both have row-major position
  `i`); and the column broadcast back along the rows holds, at `(p, c)`, the column's entry `p` (the unit axis is read at
  0, the other at the same coordinate). For any element type and any extents.
-/
import Idealize.ShloMosaic.Lib.Pipeline.Value
import Idealize.ShloMosaic.Lib.ValueIdx

noncomputable section

namespace Cert.Lib.Keepdims

open Idealize.ShloMosaic Idealize.ShloMosaic.ValueIdx

/-- A length-`a` vector cast to an `a × 1` column reads, at `(i, ·)`, the vector at `i`. -/
theorem col_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `a × 1` column broadcast along its rows reads, at `(p, c)`, the column at `p`. -/
theorem bcastCol_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib.Keepdims

end
-- ==== Proof.Payloads.lean ====
/-
  The two kernel bodies' arithmetic read at an index, on the extended reals.

  The projection body computes, at (p, q) of its 10000-row block, tanh of row p of the x block against column q
  of W_in plus b_in q: the product into a zero accumulator is the plain sum over the 117 contraction positions
  (a change of float format is the identity on exact values), and the bias is a vector laid as a row and repeated
  down the rows.

  A layer's body lays the block's own rows beside its neighbour-sum rows scaled by the inverse degree (a column
  repeated across the 128 lanes), contracts the 256 entries with the stacked weights, adds the bias row and takes
  the positive part. Entry k of the fused row is the own row's entry for k < 128 and the scaled neighbour row's
  entry k − 128 otherwise, so the one sum splits into the layer's two sums.
-/
import proofs.«171101_j24988119728557_2_alg».proof.Proof.Gen.KernelIdeal.Skeleton
import proofs.«171101_j24988119728557_2_alg».proof.Proof.Sage
import proofs.«171101_j24988119728557_2_alg».proof.Proof.LibPlainDot
import proofs.«171101_j24988119728557_2_alg».proof.Proof.LibRowBroadcasts
import proofs.«171101_j24988119728557_2_alg».proof.Proof.LibKeepdims
import Idealize.ShloMosaic.Lib.Pipeline.Value
import Idealize.ShloMosaic.Lib.ValueIdx
import Idealize.ShloMosaic.PureOps.Ideal.Laws

noncomputable section

namespace Cert.KernelIdeal.Pay

open Cert.KernelIdeal Cert.KernelIdeal.Gen Cert.Sage Cert.Lib
open Idealize.ShloMosaic Idealize.ShloMosaic.ValueIdx
open scoped BigOperators

/-- A length-b vector laid as a 1 × b row reads, at (u, q), the vector at q. -/
theorem castRow_apply {α : Type} {b : Nat} (v : (⟨1, ![b]⟩ : Shape).Idx → α)
    (hc : (⟨1, ![b]⟩ : Shape).ShapeCasts ⟨2, ![1, b]⟩) (u : Fin 1) (q : Fin b) :
    shapeCast ⟨2, ![1, b]⟩ v hc (ix2 u q) = v (ix1 q) :=
  shapeCast_apply v hc _ _ (by
    have hu : u.val = 0 := by omega
    rw [Shape.rowMajor_val_two, Shape.rowMajor_val_one]
    show q.val = u.val * b + q.val
    rw [hu, Nat.zero_mul, Nat.zero_add])

/-- The projection body at (p, q) of its block. -/
theorem proj_pay (x0 : Vec Ideal S10000x117 .f32) (x1 : Vec Ideal S117x128 .f32) (x2 : Vec Ideal S128 .f32)
    (p : Fin 10000) (q : Fin 128) :
    k0_pay1 (F := Ideal) x0 x1 x2 (ix2 p q) = projAt x0 x1 x2 p q := by
  unfold k0_pay1 projAt
  refine congrArg Ideal.tanh (congrArg₂ (· + ·) ?_ ?_)
  · exact PlainDot.matmul_zero_apply dot_S10000x117_S117x128_S10000x128_1_0_0_1_n_n_wf none _ _ p q
  · exact (Rows.bcastRow_apply _ broadcasts_S1x128_S10000x128 p q).trans (castRow_apply x2 shapeCasts_S128_S1x128 0 q)

/-- The block's own rows, as the fused row's left half holds them. -/
def ownPart (x0 : Vec Ideal S5000x128 .f32) : FVec Ideal S5000x128 .bf16 :=
  truncf .bf16 (shapeCast S5000x128 x0 shapeCasts_S5000x128_S5000x128) bitsLt_bf16_f32

/-- The block's neighbour-sum rows, each scaled by its row's inverse degree, as the fused row's right half holds them. -/
def nbrPart (x1 : Vec Ideal S5000x128 .f32) (x2 : Vec Ideal S5000x1 .f32) : FVec Ideal S5000x128 .bf16 :=
  truncf .bf16 (mulf (shapeCast S5000x128 x1 shapeCasts_S5000x128_S5000x128)
    (broadcastTo S5000x128 (shapeCast S5000x1 x2 shapeCasts_S5000x1_S5000x1) broadcasts_S5000x1_S5000x128)) bitsLt_bf16_f32

/-- The fused row of a layer's body: the block's own rows beside its scaled neighbour-sum rows. -/
def fusedRow (x0 x1 : Vec Ideal S5000x128 .f32) (x2 : Vec Ideal S5000x1 .f32) : FVec Ideal S5000x256 .bf16 :=
  concatenate S5000x256 1 [⟨S5000x128, ownPart x0⟩, ⟨S5000x128, nbrPart x1 x2⟩] concatenates_S5000x128_S5000x128_S5000x256_d1

/-- Entry k < 128 of the fused row is the own row's entry k. -/
theorem fusedRow_left (x0 x1 : Vec Ideal S5000x128 .f32) (x2 : Vec Ideal S5000x1 .f32) (p : Fin 5000) (k : Fin 128) :
    fusedRow x0 x1 x2 (ix2 p (⟨k.val, by omega⟩ : Fin 256)) = x0 (ix2 p k) := by
  unfold fusedRow
  exact (concatenate_pair_apply_left (t := S5000x256) (s₁ := S5000x128) (s₂ := S5000x128) (1 : Fin 2) (ownPart x0) (nbrPart x1 x2)
      concatenates_S5000x128_S5000x128_S5000x256_d1 (ix2 p (⟨k.val, by omega⟩ : Fin 256)) rfl (ix2 p k)
      (fun b => match b with | ⟨0, _⟩ => rfl | ⟨1, _⟩ => rfl)).trans
    (congrFun (shapeCast_self x0 shapeCasts_S5000x128_S5000x128) (ix2 p k))

/-- Entry 128 + k of the fused row is the neighbour-sum row's entry k times the row's inverse degree. -/
theorem fusedRow_right (x0 x1 : Vec Ideal S5000x128 .f32) (x2 : Vec Ideal S5000x1 .f32) (p : Fin 5000) (k : Fin 128) :
    fusedRow x0 x1 x2 (ix2 p (⟨128 + k.val, by omega⟩ : Fin 256)) = x1 (ix2 p k) * x2 (ix2 p (0 : Fin 1)) := by
  unfold fusedRow
  exact (concatenate_pair_apply_right (t := S5000x256) (s₁ := S5000x128) (s₂ := S5000x128) (1 : Fin 2) (ownPart x0) (nbrPart x1 x2)
      concatenates_S5000x128_S5000x128_S5000x256_d1 (ix2 p (⟨128 + k.val, by omega⟩ : Fin 256)) rfl rfl (ix2 p k)
      (fun b hb => match b, hb with | ⟨0, _⟩, _ => rfl | ⟨1, _⟩, hb => absurd rfl hb)
      (show k.val + 128 = 128 + k.val by omega)).trans
    (congrArg₂ (· * ·) (congrFun (shapeCast_self x1 shapeCasts_S5000x128_S5000x128) (ix2 p k))
      ((Keepdims.bcastCol_apply _ broadcasts_S5000x1_S5000x128 p k).trans
        (congrFun (shapeCast_self x2 shapeCasts_S5000x1_S5000x1) (ix2 p (0 : Fin 1)))))

/-- A layer's body at (p, q) of its block. -/
theorem layer_pay (x0 x1 : Vec Ideal S5000x128 .f32) (x2 : Vec Ideal S5000x1 .f32) (x3 : Vec Ideal S256x128 .f32)
    (x4 : Vec Ideal S128 .f32) (p : Fin 5000) (q : Fin 128) :
    k1_pay1 (F := Ideal) x0 x1 x2 x3 x4 (ix2 p q) = layerAt x0 x1 (colVec x2) (top x3) (bot x3) x4 p q := by
  refine Eq.trans ?_ (fused_eq x0 x1 (colVec x2) x3 x4 p q (fun k => fusedRow x0 x1 x2 (ix2 p k))
    (fusedRow_left x0 x1 x2 p) (fusedRow_right x0 x1 x2 p))
  unfold k1_pay1
  refine congrArg₂ max (congrArg₂ (· + ·) ?_ ?_) Ideal.ofBits_zero_f32
  · exact (PlainDot.matmul_zero_apply dot_S5000x256_S256x128_S5000x128_1_0_0_1_n_n_wf none (fusedRow x0 x1 x2) _ p q).trans
      (Finset.sum_congr rfl fun k _ => congrArg (fusedRow x0 x1 x2 (ix2 p k) * ·)
        (congrFun (shapeCast_self x3 shapeCasts_S256x128_S256x128) (ix2 k q)))
  · exact (Rows.bcastRow_apply _ broadcasts_S1x128_S5000x128 p q).trans
      ((castRow_apply _ shapeCasts_S128_S1x128 0 q).trans (congrFun (shapeCast_self x4 shapeCasts_S128_S128) (ix1 q)))

/-- The three layers' bodies are one text. -/
theorem k2_pay1_eq : @k2_pay1 Ideal _ = @k1_pay1 Ideal _ := rfl
theorem k3_pay1_eq : @k3_pay1 Ideal _ = @k1_pay1 Ideal _ := rfl

/-- The projection at (p, q) depends on row p of x, column q of w and entry q of b only. -/
theorem projAt_congr {n n' f : Nat} (x : Mat n f) (x' : Mat n' f) (w w' : Mat f 128) (b b' : Row 128)
    (p : Fin n) (p' : Fin n') (q : Fin 128)
    (hx : ∀ k : Fin f, x (ix2 p k) = x' (ix2 p' k)) (hw : ∀ k : Fin f, w (ix2 k q) = w' (ix2 k q))
    (hb : b (ix1 q) = b' (ix1 q)) : projAt x w b p q = projAt x' w' b' p' q := by
  unfold projAt
  simp only [hx, hw, hb]

/-- A layer at (p, q) depends on row p of h and of s, entry p of d, column q of the weights and entry q of b only. -/
theorem layerAt_congr {n n' : Nat} (h s : Mat n 128) (h' s' : Mat n' 128) (d : Row n) (d' : Row n')
    (ws wn ws' wn' : Mat 128 128) (b b' : Row 128) (p : Fin n) (p' : Fin n') (q : Fin 128)
    (hh : ∀ k : Fin 128, h (ix2 p k) = h' (ix2 p' k)) (hs : ∀ k : Fin 128, s (ix2 p k) = s' (ix2 p' k))
    (hd : d (ix1 p) = d' (ix1 p')) (hws : ∀ k : Fin 128, ws (ix2 k q) = ws' (ix2 k q))
    (hwn : ∀ k : Fin 128, wn (ix2 k q) = wn' (ix2 k q)) (hb : b (ix1 q) = b' (ix1 q)) :
    layerAt h s d ws wn b p q = layerAt h' s' d' ws' wn' b' p' q := by
  unfold layerAt
  simp only [hh, hs, hd, hws, hwn, hb]

end Cert.KernelIdeal.Pay

end
-- ==== Proof.Region0.lean ====
/-
  Region 0 (the input projection), from blocks to the array.

  The grid has 50 points; point t stages rows 10000 t … 10000 t + 9999 of x, the whole of W_in and b_in, and
  writes back rows 10000 t … 10000 t + 9999 of the result. Row p of the block written at point t is row
  10000 t + p of the array, and the body's value there depends on the same row of x only, so each written block
  is the restriction of ONE function of the whole arrays — the projection — and the 50 blocks tile the 500000
  rows: the array ends holding the projection of the arrays the region found.
-/
import proofs.«171101_j24988119728557_2_alg».proof.Proof.Gen.KernelIdeal.Frame
import proofs.«171101_j24988119728557_2_alg».proof.Proof.Payloads
import Idealize.ShloMosaic.Lib.Pipeline.Value

set_option maxRecDepth 16384

noncomputable section

namespace Cert.KernelIdeal.Reg0

open Cert.KernelIdeal Cert.KernelIdeal.Gen Cert.KernelIdeal.Pay Cert.Sage
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The block index maps over the grid: the x window and the output window move down the rows with the point,
    the weight and bias windows stay. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0 ∧ win0_2.index t (0 : Fin 1) = 0
    ∧ win0_3.index t (0 : Fin 2) = t.val ∧ win0_3.index t (1 : Fin 2) = 0 :=
  (by decide +kernel : ∀ t : Fin grid0.N, _)

/-- What point t writes back is block t of the projection of the arrays as the region finds them. -/
theorem flushed (c : Dev nD) (t : Fin cfg0.N) :
    (dat0 V c).flushed 3 t = ((cfg0.win 3).blk t).view.read (Elt Ideal)
      (proj (V c main_arg0) (V c main_arg3) (V c main_arg4)) := by
  show (cfg0.win 3).cut (grid0.coords t) ((dat0 V c).after 3 t) = _
  rw [after0_3]
  unfold out0_3
  rw [View.canon_unit_zero hz2]
  simp only [View.ld_unit_zero (S := S10000x117) hz2, View.ld_unit_zero (S := S117x128) hz2, View.ld_unit_zero (S := S128) hz1]
  obtain ⟨e00, e01, e10, e11, e20, e30, e31⟩ := idx_facts t
  have ht : t.val < 50 := lt_of_lt_of_eq t.isLt N_0
  funext j
  obtain ⟨p, q, rfl⟩ : ∃ (p : Fin 10000) (q : Fin 128), j = ix2 p q := ⟨j 0, j 1, eq_ix2 j⟩
  have hP : t.val * 10000 + p.val < 500000 := by have := p.isLt; omega
  show k0_pay1 (iblk0 V c 0 t) (iblk0 V c 1 t) (iblk0 V c 2 t) (ix2 p q)
    = proj (V c main_arg0) (V c main_arg3) (V c main_arg4) (((cfg0.win 3).blk t).view.emb (ix2 p q))
  have he : ((cfg0.win 3).blk t).view.emb (ix2 p q) = ix2 (⟨t.val * 10000 + p.val, hP⟩ : Fin 500000) q := by
    funext a; apply Fin.ext
    match a with
    | ⟨0, _⟩ => show win0_3.index t (0 : Fin 2) * 10000 + 1 * p.val = t.val * 10000 + p.val; omega
    | ⟨1, _⟩ => show win0_3.index t (1 : Fin 2) * 128 + 1 * q.val = q.val; omega
  rw [he, proj_apply]
  refine (proj_pay (iblk0 V c 0 t) (iblk0 V c 1 t) (iblk0 V c 2 t) p q).trans ?_
  refine projAt_congr _ _ _ _ _ _ p (⟨t.val * 10000 + p.val, hP⟩ : Fin 500000) q (fun k => ?_) (fun k => ?_) ?_
  · show V c main_arg0 (((cfg0.win 0).blk t).view.emb (ix2 p k)) = V c main_arg0 (ix2 (⟨t.val * 10000 + p.val, hP⟩ : Fin 500000) k)
    refine congrArg _ (funext fun a => Fin.ext ?_)
    match a with
    | ⟨0, _⟩ => show win0_0.index t (0 : Fin 2) * 10000 + 1 * p.val = t.val * 10000 + p.val; omega
    | ⟨1, _⟩ => show win0_0.index t (1 : Fin 2) * 117 + 1 * k.val = k.val; omega
  · show V c main_arg3 (((cfg0.win 1).blk t).view.emb (ix2 k q)) = V c main_arg3 (ix2 k q)
    refine congrArg _ (funext fun a => Fin.ext ?_)
    match a with
    | ⟨0, _⟩ => show win0_1.index t (0 : Fin 2) * 117 + 1 * k.val = k.val; omega
    | ⟨1, _⟩ => show win0_1.index t (1 : Fin 2) * 128 + 1 * q.val = q.val; omega
  · show V c main_arg4 (((cfg0.win 2).blk t).view.emb (ix1 q)) = V c main_arg4 (ix1 q)
    refine congrArg _ (funext fun a => Fin.ext ?_)
    match a with
    | ⟨0, _⟩ => show win0_2.index t (0 : Fin 1) * 128 + 1 * q.val = q.val; omega

/-- An index of the array is in point t's block iff each coordinate is in the block's range on its axis. -/
theorem mem_blk (t : Fin cfg0.N) (i : S500000x128.Idx) :
    i ∈ ((cfg0.win 3).blk t).view.set ↔ ∀ a : Fin 2, win0_3.index t a * S10000x128.size a ≤ (i a).val
      ∧ (i a).val < win0_3.index t a * S10000x128.size a + S10000x128.size a := by
  show i ∈ ((View.whole main_v0).slice (win0_3.rect t)).set ↔ _
  rw [View.set_slice_whole, Rect.mem_set_unit]
  exact Iff.rfl

/-- Every index of the array lies in the block of the point its row's quotient by 10000 names. -/
theorem cover (i : S500000x128.Idx) :
    ∃ t : Fin cfg0.N, (cfg0.win 3).flush t = true ∧ i ∈ ((cfg0.win 3).blk t).view.set := by
  have hi0 : (i 0).val < 500000 := (i 0).isLt
  have hi1 : (i 1).val < 128 := (i 1).isLt
  have hN : cfg0.N = 50 := N_0
  let t : Fin cfg0.N := ⟨(i 0).val / 10000, by rw [hN]; omega⟩
  obtain ⟨e00, e01, e10, e11, e20, e30, e31⟩ := idx_facts t
  have e30' : win0_3.index t (0 : Fin 2) = (i 0).val / 10000 := e30
  refine ⟨t, flush0_3 t, ?_⟩
  rw [mem_blk]
  intro a
  match a with
  | ⟨0, _⟩ => show win0_3.index t (0 : Fin 2) * 10000 ≤ (i 0).val ∧ (i 0).val < win0_3.index t (0 : Fin 2) * 10000 + 10000; omega
  | ⟨1, _⟩ => show win0_3.index t (1 : Fin 2) * 128 ≤ (i 1).val ∧ (i 1).val < win0_3.index t (1 : Fin 2) * 128 + 128; omega

/-- The array region 0 leaves: the projection of the arrays it found. -/
theorem final (c : Dev nD) :
    (dat0 V c).arrAt 3 cfg0.N = proj (V c main_arg0) (V c main_arg3) (V c main_arg4) :=
  (dat0 V c).arrAt_eq_of_cover 3 _ (fun t _ => flushed V c t) cover

end Cert.KernelIdeal.Reg0

end
-- ==== Proof.Region1.lean ====
/-
  Region 1 (the first layer), from blocks to the array.

  The grid has 100 points; point t stages rows 5000 t … 5000 t + 4999 of the node features, of the neighbour sums
  and of the inverse-degree column, the whole stacked weights and the bias, and writes back rows 5000 t …
  5000 t + 4999 of the result. Row p of the block written at point t is row 5000 t + p of the array, and the
  body's value there depends on that same row of the three row-blocked arrays only, so each written block is the
  restriction of ONE function of the whole arrays — the layer — and the 100 blocks tile the 500000 rows.
-/
import proofs.«171101_j24988119728557_2_alg».proof.Proof.Gen.KernelIdeal.Frame
import proofs.«171101_j24988119728557_2_alg».proof.Proof.Payloads
import Idealize.ShloMosaic.Lib.Pipeline.Value

set_option maxRecDepth 16384

noncomputable section

namespace Cert.KernelIdeal.Reg1

open Cert.KernelIdeal Cert.KernelIdeal.Gen Cert.KernelIdeal.Pay Cert.Sage
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The block index maps over the grid: the three row-blocked input windows and the output window move down the
    rows with the point, the weight and bias windows stay. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0 ∧ win1_4.index t (0 : Fin 1) = 0
    ∧ win1_5.index t (0 : Fin 2) = t.val ∧ win1_5.index t (1 : Fin 2) = 0 :=
  (by decide +kernel : ∀ t : Fin grid1.N, _)

/-- What point t writes back is block t of the layer of the arrays as the region finds them. -/
theorem flushed (c : Dev nD) (t : Fin cfg1.N) :
    (dat1 V c).flushed 5 t = ((cfg1.win 5).blk t).view.read (Elt Ideal)
      (layer (V c main_v0) (V c main_v19) (colVec (V c main_v9)) (top (V c main_v24)) (bot (V c main_v24)) (V c main_v26)) := by
  show (cfg1.win 5).cut (grid1.coords t) ((dat1 V c).after 5 t) = _
  rw [after1_5]
  unfold out1_5
  rw [View.canon_unit_zero hz2]
  simp only [View.ld_unit_zero (S := S5000x128) hz2, View.ld_unit_zero (S := S5000x1) hz2,
    View.ld_unit_zero (S := S256x128) hz2, View.ld_unit_zero (S := S128) hz1]
  obtain ⟨e00, e01, e10, e11, e20, e21, e30, e31, e40, e50, e51⟩ := idx_facts t
  have ht : t.val < 100 := lt_of_lt_of_eq t.isLt N_1
  funext j
  obtain ⟨p, q, rfl⟩ : ∃ (p : Fin 5000) (q : Fin 128), j = ix2 p q := ⟨j 0, j 1, eq_ix2 j⟩
  have hP : t.val * 5000 + p.val < 500000 := by have := p.isLt; omega
  show k1_pay1 (iblk1 V c 0 t) (iblk1 V c 1 t) (iblk1 V c 2 t) (iblk1 V c 3 t) (iblk1 V c 4 t) (ix2 p q)
    = layer (V c main_v0) (V c main_v19) (colVec (V c main_v9)) (top (V c main_v24)) (bot (V c main_v24)) (V c main_v26)
        (((cfg1.win 5).blk t).view.emb (ix2 p q))
  have he : ((cfg1.win 5).blk t).view.emb (ix2 p q) = ix2 (⟨t.val * 5000 + p.val, hP⟩ : Fin 500000) q := by
    funext a; apply Fin.ext
    match a with
    | ⟨0, _⟩ => show win1_5.index t (0 : Fin 2) * 5000 + 1 * p.val = t.val * 5000 + p.val; omega
    | ⟨1, _⟩ => show win1_5.index t (1 : Fin 2) * 128 + 1 * q.val = q.val; omega
  rw [he, layer_apply]
  refine Eq.trans (layer_pay (iblk1 V c 0 t) (iblk1 V c 1 t) (iblk1 V c 2 t) (iblk1 V c 3 t) (iblk1 V c 4 t) p q) ?_
  have hw : ∀ y : S256x128.Idx, iblk1 V c 3 t y = V c main_v24 y := fun y => by
    show V c main_v24 (((cfg1.win 3).blk t).view.emb y) = V c main_v24 y
    refine congrArg _ (funext fun a => Fin.ext ?_)
    match a with
    | ⟨0, _⟩ => show win1_3.index t (0 : Fin 2) * 256 + 1 * (y 0).val = (y 0).val; omega
    | ⟨1, _⟩ => show win1_3.index t (1 : Fin 2) * 128 + 1 * (y 1).val = (y 1).val; omega
  refine layerAt_congr _ _ _ _ _ _ _ _ _ _ _ _ p (⟨t.val * 5000 + p.val, hP⟩ : Fin 500000) q
    (fun k => ?_) (fun k => ?_) ?_ (fun k => ?_) (fun k => ?_) ?_
  · show V c main_v0 (((cfg1.win 0).blk t).view.emb (ix2 p k)) = V c main_v0 (ix2 (⟨t.val * 5000 + p.val, hP⟩ : Fin 500000) k)
    refine congrArg _ (funext fun a => Fin.ext ?_)
    match a with
    | ⟨0, _⟩ => show win1_0.index t (0 : Fin 2) * 5000 + 1 * p.val = t.val * 5000 + p.val; omega
    | ⟨1, _⟩ => show win1_0.index t (1 : Fin 2) * 128 + 1 * k.val = k.val; omega
  · show V c main_v19 (((cfg1.win 1).blk t).view.emb (ix2 p k)) = V c main_v19 (ix2 (⟨t.val * 5000 + p.val, hP⟩ : Fin 500000) k)
    refine congrArg _ (funext fun a => Fin.ext ?_)
    match a with
    | ⟨0, _⟩ => show win1_1.index t (0 : Fin 2) * 5000 + 1 * p.val = t.val * 5000 + p.val; omega
    | ⟨1, _⟩ => show win1_1.index t (1 : Fin 2) * 128 + 1 * k.val = k.val; omega
  · show V c main_v9 (((cfg1.win 2).blk t).view.emb (ix2 p (0 : Fin 1))) = V c main_v9 (ix2 (⟨t.val * 5000 + p.val, hP⟩ : Fin 500000) (0 : Fin 1))
    refine congrArg _ (funext fun a => Fin.ext ?_)
    match a with
    | ⟨0, _⟩ => show win1_2.index t (0 : Fin 2) * 5000 + 1 * p.val = t.val * 5000 + p.val; omega
    | ⟨1, _⟩ => show win1_2.index t (1 : Fin 2) * 1 + 1 * 0 = 0; omega
  · exact hw _
  · exact hw _
  · show V c main_v26 (((cfg1.win 4).blk t).view.emb (ix1 q)) = V c main_v26 (ix1 q)
    refine congrArg _ (funext fun a => Fin.ext ?_)
    match a with
    | ⟨0, _⟩ => show win1_4.index t (0 : Fin 1) * 128 + 1 * q.val = q.val; omega

/-- An index of the array is in point t's block iff each coordinate is in the block's range on its axis. -/
theorem mem_blk (t : Fin cfg1.N) (i : S500000x128.Idx) :
    i ∈ ((cfg1.win 5).blk t).view.set ↔ ∀ a : Fin 2, win1_5.index t a * S5000x128.size a ≤ (i a).val
      ∧ (i a).val < win1_5.index t a * S5000x128.size a + S5000x128.size a := by
  show i ∈ ((View.whole main_v27).slice (win1_5.rect t)).set ↔ _
  rw [View.set_slice_whole, Rect.mem_set_unit]
  exact Iff.rfl

/-- Every index of the array lies in the block of the point its row's quotient by 5000 names. -/
theorem cover (i : S500000x128.Idx) :
    ∃ t : Fin cfg1.N, (cfg1.win 5).flush t = true ∧ i ∈ ((cfg1.win 5).blk t).view.set := by
  have hi0 : (i 0).val < 500000 := (i 0).isLt
  have hi1 : (i 1).val < 128 := (i 1).isLt
  have hN : cfg1.N = 100 := N_1
  let t : Fin cfg1.N := ⟨(i 0).val / 5000, by rw [hN]; omega⟩
  obtain ⟨e00, e01, e10, e11, e20, e21, e30, e31, e40, e50, e51⟩ := idx_facts t
  have e50' : win1_5.index t (0 : Fin 2) = (i 0).val / 5000 := e50
  refine ⟨t, flush1_5 t, ?_⟩
  rw [mem_blk]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 128 ≤ (i 1).val ∧ (i 1).val < win1_5.index t (1 : Fin 2) * 128 + 128; omega

/-- The array region 1 leaves: the layer of the arrays it found. -/
theorem final (c : Dev nD) :
    (dat1 V c).arrAt 5 cfg1.N
      = layer (V c main_v0) (V c main_v19) (colVec (V c main_v9)) (top (V c main_v24)) (bot (V c main_v24)) (V c main_v26) :=
  (dat1 V c).arrAt_eq_of_cover 5 _ (fun t _ => flushed V c t) cover

end Cert.KernelIdeal.Reg1

end
-- ==== Proof.Region2.lean ====
/-
  Region 2 (the second layer), from blocks to the array.

  The grid has 100 points; point t stages rows 5000 t … 5000 t + 4999 of the node features, of the neighbour sums
  and of the inverse-degree column, the whole stacked weights and the bias, and writes back rows 5000 t …
  5000 t + 4999 of the result. Row p of the block written at point t is row 5000 t + p of the array, and the
  body's value there depends on that same row of the three row-blocked arrays only, so each written block is the
  restriction of ONE function of the whole arrays — the layer — and the 100 blocks tile the 500000 rows.
-/
import proofs.«171101_j24988119728557_2_alg».proof.Proof.Gen.KernelIdeal.Frame
import proofs.«171101_j24988119728557_2_alg».proof.Proof.Payloads
import Idealize.ShloMosaic.Lib.Pipeline.Value

set_option maxRecDepth 16384

noncomputable section

namespace Cert.KernelIdeal.Reg2

open Cert.KernelIdeal Cert.KernelIdeal.Gen Cert.KernelIdeal.Pay Cert.Sage
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The block index maps over the grid: the three row-blocked input windows and the output window move down the
    rows with the point, the weight and bias windows stay. -/
theorem idx_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0 ∧ win2_4.index t (0 : Fin 1) = 0
    ∧ win2_5.index t (0 : Fin 2) = t.val ∧ win2_5.index t (1 : Fin 2) = 0 :=
  (by decide +kernel : ∀ t : Fin grid2.N, _)

/-- What point t writes back is block t of the layer of the arrays as the region finds them. -/
theorem flushed (c : Dev nD) (t : Fin cfg2.N) :
    (dat2 V c).flushed 5 t = ((cfg2.win 5).blk t).view.read (Elt Ideal)
      (layer (V c main_v27) (V c main_v37) (colVec (V c main_v9)) (top (V c main_v42)) (bot (V c main_v42)) (V c main_v44)) := by
  show (cfg2.win 5).cut (grid2.coords t) ((dat2 V c).after 5 t) = _
  rw [after2_5]
  unfold out2_5
  rw [View.canon_unit_zero hz2]
  simp only [View.ld_unit_zero (S := S5000x128) hz2, View.ld_unit_zero (S := S5000x1) hz2,
    View.ld_unit_zero (S := S256x128) hz2, View.ld_unit_zero (S := S128) hz1]
  obtain ⟨e00, e01, e10, e11, e20, e21, e30, e31, e40, e50, e51⟩ := idx_facts t
  have ht : t.val < 100 := lt_of_lt_of_eq t.isLt N_2
  funext j
  obtain ⟨p, q, rfl⟩ : ∃ (p : Fin 5000) (q : Fin 128), j = ix2 p q := ⟨j 0, j 1, eq_ix2 j⟩
  have hP : t.val * 5000 + p.val < 500000 := by have := p.isLt; omega
  show k2_pay1 (iblk2 V c 0 t) (iblk2 V c 1 t) (iblk2 V c 2 t) (iblk2 V c 3 t) (iblk2 V c 4 t) (ix2 p q)
    = layer (V c main_v27) (V c main_v37) (colVec (V c main_v9)) (top (V c main_v42)) (bot (V c main_v42)) (V c main_v44)
        (((cfg2.win 5).blk t).view.emb (ix2 p q))
  have he : ((cfg2.win 5).blk t).view.emb (ix2 p q) = ix2 (⟨t.val * 5000 + p.val, hP⟩ : Fin 500000) q := by
    funext a; apply Fin.ext
    match a with
    | ⟨0, _⟩ => show win2_5.index t (0 : Fin 2) * 5000 + 1 * p.val = t.val * 5000 + p.val; omega
    | ⟨1, _⟩ => show win2_5.index t (1 : Fin 2) * 128 + 1 * q.val = q.val; omega
  rw [he, layer_apply]
  refine Eq.trans (layer_pay (iblk2 V c 0 t) (iblk2 V c 1 t) (iblk2 V c 2 t) (iblk2 V c 3 t) (iblk2 V c 4 t) p q) ?_
  have hw : ∀ y : S256x128.Idx, iblk2 V c 3 t y = V c main_v42 y := fun y => by
    show V c main_v42 (((cfg2.win 3).blk t).view.emb y) = V c main_v42 y
    refine congrArg _ (funext fun a => Fin.ext ?_)
    match a with
    | ⟨0, _⟩ => show win2_3.index t (0 : Fin 2) * 256 + 1 * (y 0).val = (y 0).val; omega
    | ⟨1, _⟩ => show win2_3.index t (1 : Fin 2) * 128 + 1 * (y 1).val = (y 1).val; omega
  refine layerAt_congr _ _ _ _ _ _ _ _ _ _ _ _ p (⟨t.val * 5000 + p.val, hP⟩ : Fin 500000) q
    (fun k => ?_) (fun k => ?_) ?_ (fun k => ?_) (fun k => ?_) ?_
  · show V c main_v27 (((cfg2.win 0).blk t).view.emb (ix2 p k)) = V c main_v27 (ix2 (⟨t.val * 5000 + p.val, hP⟩ : Fin 500000) k)
    refine congrArg _ (funext fun a => Fin.ext ?_)
    match a with
    | ⟨0, _⟩ => show win2_0.index t (0 : Fin 2) * 5000 + 1 * p.val = t.val * 5000 + p.val; omega
    | ⟨1, _⟩ => show win2_0.index t (1 : Fin 2) * 128 + 1 * k.val = k.val; omega
  · show V c main_v37 (((cfg2.win 1).blk t).view.emb (ix2 p k)) = V c main_v37 (ix2 (⟨t.val * 5000 + p.val, hP⟩ : Fin 500000) k)
    refine congrArg _ (funext fun a => Fin.ext ?_)
    match a with
    | ⟨0, _⟩ => show win2_1.index t (0 : Fin 2) * 5000 + 1 * p.val = t.val * 5000 + p.val; omega
    | ⟨1, _⟩ => show win2_1.index t (1 : Fin 2) * 128 + 1 * k.val = k.val; omega
  · show V c main_v9 (((cfg2.win 2).blk t).view.emb (ix2 p (0 : Fin 1))) = V c main_v9 (ix2 (⟨t.val * 5000 + p.val, hP⟩ : Fin 500000) (0 : Fin 1))
    refine congrArg _ (funext fun a => Fin.ext ?_)
    match a with
    | ⟨0, _⟩ => show win2_2.index t (0 : Fin 2) * 5000 + 1 * p.val = t.val * 5000 + p.val; omega
    | ⟨1, _⟩ => show win2_2.index t (1 : Fin 2) * 1 + 1 * 0 = 0; omega
  · exact hw _
  · exact hw _
  · show V c main_v44 (((cfg2.win 4).blk t).view.emb (ix1 q)) = V c main_v44 (ix1 q)
    refine congrArg _ (funext fun a => Fin.ext ?_)
    match a with
    | ⟨0, _⟩ => show win2_4.index t (0 : Fin 1) * 128 + 1 * q.val = q.val; omega

/-- An index of the array is in point t's block iff each coordinate is in the block's range on its axis. -/
theorem mem_blk (t : Fin cfg2.N) (i : S500000x128.Idx) :
    i ∈ ((cfg2.win 5).blk t).view.set ↔ ∀ a : Fin 2, win2_5.index t a * S5000x128.size a ≤ (i a).val
      ∧ (i a).val < win2_5.index t a * S5000x128.size a + S5000x128.size a := by
  show i ∈ ((View.whole main_v45).slice (win2_5.rect t)).set ↔ _
  rw [View.set_slice_whole, Rect.mem_set_unit]
  exact Iff.rfl

/-- Every index of the array lies in the block of the point its row's quotient by 5000 names. -/
theorem cover (i : S500000x128.Idx) :
    ∃ t : Fin cfg2.N, (cfg2.win 5).flush t = true ∧ i ∈ ((cfg2.win 5).blk t).view.set := by
  have hi0 : (i 0).val < 500000 := (i 0).isLt
  have hi1 : (i 1).val < 128 := (i 1).isLt
  have hN : cfg2.N = 100 := N_2
  let t : Fin cfg2.N := ⟨(i 0).val / 5000, by rw [hN]; omega⟩
  obtain ⟨e00, e01, e10, e11, e20, e21, e30, e31, e40, e50, e51⟩ := idx_facts t
  have e50' : win2_5.index t (0 : Fin 2) = (i 0).val / 5000 := e50
  refine ⟨t, flush2_5 t, ?_⟩
  rw [mem_blk]
  intro a
  match a with
  | ⟨0, _⟩ => show win2_5.index t (0 : Fin 2) * 5000 ≤ (i 0).val ∧ (i 0).val < win2_5.index t (0 : Fin 2) * 5000 + 5000; omega
  | ⟨1, _⟩ => show win2_5.index t (1 : Fin 2) * 128 ≤ (i 1).val ∧ (i 1).val < win2_5.index t (1 : Fin 2) * 128 + 128; omega

/-- The array region 2 leaves: the layer of the arrays it found. -/
theorem final (c : Dev nD) :
    (dat2 V c).arrAt 5 cfg2.N
      = layer (V c main_v27) (V c main_v37) (colVec (V c main_v9)) (top (V c main_v42)) (bot (V c main_v42)) (V c main_v44) :=
  (dat2 V c).arrAt_eq_of_cover 5 _ (fun t _ => flushed V c t) cover

end Cert.KernelIdeal.Reg2

end
-- ==== Proof.Region3.lean ====
/-
  Region 3 (the third layer), from blocks to the array.

  The grid has 100 points; point t stages rows 5000 t … 5000 t + 4999 of the node features, of the neighbour sums
  and of the inverse-degree column, the whole stacked weights and the bias, and writes back rows 5000 t …
  5000 t + 4999 of the result. Row p of the block written at point t is row 5000 t + p of the array, and the
  body's value there depends on that same row of the three row-blocked arrays only, so each written block is the
  restriction of ONE function of the whole arrays — the layer — and the 100 blocks tile the 500000 rows.
-/
import proofs.«171101_j24988119728557_2_alg».proof.Proof.Gen.KernelIdeal.Frame
import proofs.«171101_j24988119728557_2_alg».proof.Proof.Payloads
import Idealize.ShloMosaic.Lib.Pipeline.Value

set_option maxRecDepth 16384

noncomputable section

namespace Cert.KernelIdeal.Reg3

open Cert.KernelIdeal Cert.KernelIdeal.Gen Cert.KernelIdeal.Pay Cert.Sage
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The block index maps over the grid: the three row-blocked input windows and the output window move down the
    rows with the point, the weight and bias windows stay. -/
theorem idx_facts : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0 ∧ win3_4.index t (0 : Fin 1) = 0
    ∧ win3_5.index t (0 : Fin 2) = t.val ∧ win3_5.index t (1 : Fin 2) = 0 :=
  (by decide +kernel : ∀ t : Fin grid3.N, _)

/-- What point t writes back is block t of the layer of the arrays as the region finds them. -/
theorem flushed (c : Dev nD) (t : Fin cfg3.N) :
    (dat3 V c).flushed 5 t = ((cfg3.win 5).blk t).view.read (Elt Ideal)
      (layer (V c main_v45) (V c main_v55) (colVec (V c main_v9)) (top (V c main_v60)) (bot (V c main_v60)) (V c main_v62)) := by
  show (cfg3.win 5).cut (grid3.coords t) ((dat3 V c).after 5 t) = _
  rw [after3_5]
  unfold out3_5
  rw [View.canon_unit_zero hz2]
  simp only [View.ld_unit_zero (S := S5000x128) hz2, View.ld_unit_zero (S := S5000x1) hz2,
    View.ld_unit_zero (S := S256x128) hz2, View.ld_unit_zero (S := S128) hz1]
  obtain ⟨e00, e01, e10, e11, e20, e21, e30, e31, e40, e50, e51⟩ := idx_facts t
  have ht : t.val < 100 := lt_of_lt_of_eq t.isLt N_3
  funext j
  obtain ⟨p, q, rfl⟩ : ∃ (p : Fin 5000) (q : Fin 128), j = ix2 p q := ⟨j 0, j 1, eq_ix2 j⟩
  have hP : t.val * 5000 + p.val < 500000 := by have := p.isLt; omega
  show k3_pay1 (iblk3 V c 0 t) (iblk3 V c 1 t) (iblk3 V c 2 t) (iblk3 V c 3 t) (iblk3 V c 4 t) (ix2 p q)
    = layer (V c main_v45) (V c main_v55) (colVec (V c main_v9)) (top (V c main_v60)) (bot (V c main_v60)) (V c main_v62)
        (((cfg3.win 5).blk t).view.emb (ix2 p q))
  have he : ((cfg3.win 5).blk t).view.emb (ix2 p q) = ix2 (⟨t.val * 5000 + p.val, hP⟩ : Fin 500000) q := by
    funext a; apply Fin.ext
    match a with
    | ⟨0, _⟩ => show win3_5.index t (0 : Fin 2) * 5000 + 1 * p.val = t.val * 5000 + p.val; omega
    | ⟨1, _⟩ => show win3_5.index t (1 : Fin 2) * 128 + 1 * q.val = q.val; omega
  rw [he, layer_apply]
  refine Eq.trans (layer_pay (iblk3 V c 0 t) (iblk3 V c 1 t) (iblk3 V c 2 t) (iblk3 V c 3 t) (iblk3 V c 4 t) p q) ?_
  have hw : ∀ y : S256x128.Idx, iblk3 V c 3 t y = V c main_v60 y := fun y => by
    show V c main_v60 (((cfg3.win 3).blk t).view.emb y) = V c main_v60 y
    refine congrArg _ (funext fun a => Fin.ext ?_)
    match a with
    | ⟨0, _⟩ => show win3_3.index t (0 : Fin 2) * 256 + 1 * (y 0).val = (y 0).val; omega
    | ⟨1, _⟩ => show win3_3.index t (1 : Fin 2) * 128 + 1 * (y 1).val = (y 1).val; omega
  refine layerAt_congr _ _ _ _ _ _ _ _ _ _ _ _ p (⟨t.val * 5000 + p.val, hP⟩ : Fin 500000) q
    (fun k => ?_) (fun k => ?_) ?_ (fun k => ?_) (fun k => ?_) ?_
  · show V c main_v45 (((cfg3.win 0).blk t).view.emb (ix2 p k)) = V c main_v45 (ix2 (⟨t.val * 5000 + p.val, hP⟩ : Fin 500000) k)
    refine congrArg _ (funext fun a => Fin.ext ?_)
    match a with
    | ⟨0, _⟩ => show win3_0.index t (0 : Fin 2) * 5000 + 1 * p.val = t.val * 5000 + p.val; omega
    | ⟨1, _⟩ => show win3_0.index t (1 : Fin 2) * 128 + 1 * k.val = k.val; omega
  · show V c main_v55 (((cfg3.win 1).blk t).view.emb (ix2 p k)) = V c main_v55 (ix2 (⟨t.val * 5000 + p.val, hP⟩ : Fin 500000) k)
    refine congrArg _ (funext fun a => Fin.ext ?_)
    match a with
    | ⟨0, _⟩ => show win3_1.index t (0 : Fin 2) * 5000 + 1 * p.val = t.val * 5000 + p.val; omega
    | ⟨1, _⟩ => show win3_1.index t (1 : Fin 2) * 128 + 1 * k.val = k.val; omega
  · show V c main_v9 (((cfg3.win 2).blk t).view.emb (ix2 p (0 : Fin 1))) = V c main_v9 (ix2 (⟨t.val * 5000 + p.val, hP⟩ : Fin 500000) (0 : Fin 1))
    refine congrArg _ (funext fun a => Fin.ext ?_)
    match a with
    | ⟨0, _⟩ => show win3_2.index t (0 : Fin 2) * 5000 + 1 * p.val = t.val * 5000 + p.val; omega
    | ⟨1, _⟩ => show win3_2.index t (1 : Fin 2) * 1 + 1 * 0 = 0; omega
  · exact hw _
  · exact hw _
  · show V c main_v62 (((cfg3.win 4).blk t).view.emb (ix1 q)) = V c main_v62 (ix1 q)
    refine congrArg _ (funext fun a => Fin.ext ?_)
    match a with
    | ⟨0, _⟩ => show win3_4.index t (0 : Fin 1) * 128 + 1 * q.val = q.val; omega

/-- An index of the array is in point t's block iff each coordinate is in the block's range on its axis. -/
theorem mem_blk (t : Fin cfg3.N) (i : S500000x128.Idx) :
    i ∈ ((cfg3.win 5).blk t).view.set ↔ ∀ a : Fin 2, win3_5.index t a * S5000x128.size a ≤ (i a).val
      ∧ (i a).val < win3_5.index t a * S5000x128.size a + S5000x128.size a := by
  show i ∈ ((View.whole main_v63).slice (win3_5.rect t)).set ↔ _
  rw [View.set_slice_whole, Rect.mem_set_unit]
  exact Iff.rfl

/-- Every index of the array lies in the block of the point its row's quotient by 5000 names. -/
theorem cover (i : S500000x128.Idx) :
    ∃ t : Fin cfg3.N, (cfg3.win 5).flush t = true ∧ i ∈ ((cfg3.win 5).blk t).view.set := by
  have hi0 : (i 0).val < 500000 := (i 0).isLt
  have hi1 : (i 1).val < 128 := (i 1).isLt
  have hN : cfg3.N = 100 := N_3
  let t : Fin cfg3.N := ⟨(i 0).val / 5000, by rw [hN]; omega⟩
  obtain ⟨e00, e01, e10, e11, e20, e21, e30, e31, e40, e50, e51⟩ := idx_facts t
  have e50' : win3_5.index t (0 : Fin 2) = (i 0).val / 5000 := e50
  refine ⟨t, flush3_5 t, ?_⟩
  rw [mem_blk]
  intro a
  match a with
  | ⟨0, _⟩ => show win3_5.index t (0 : Fin 2) * 5000 ≤ (i 0).val ∧ (i 0).val < win3_5.index t (0 : Fin 2) * 5000 + 5000; omega
  | ⟨1, _⟩ => show win3_5.index t (1 : Fin 2) * 128 ≤ (i 1).val ∧ (i 1).val < win3_5.index t (1 : Fin 2) * 128 + 128; omega

/-- The array region 3 leaves: the layer of the arrays it found. -/
theorem final (c : Dev nD) :
    (dat3 V c).arrAt 5 cfg3.N
      = layer (V c main_v45) (V c main_v55) (colVec (V c main_v9)) (top (V c main_v60)) (bot (V c main_v60)) (V c main_v62) :=
  (dat3 V c).arrAt_eq_of_cover 5 _ (fun t _ => flushed V c t) cover

end Cert.KernelIdeal.Reg3

end
-- ==== Proof.HostStretch.lean ====
/-
  The host operations between the regions, as functions of what the buffers held before them.

  Before each layer's region the host gathers the current node features along the edge sources (a negative source
  wraps by the node count), sums them into the edge destinations' rows, stacks the layer's two weight matrices one
  above the other and takes the layer's bias row; before the first layer it also counts each node's in-edges and
  takes the reciprocal of the count, floored at one, as a column. Each stretch leaves the arguments, and the
  previous region's result, as it found them.
-/
import proofs.«171101_j24988119728557_2_alg».proof.Proof.Gen.KernelIdeal.Launch
import Idealize.ShloMosaic.Lib.StableHlo.Run
import Idealize.ShloMosaic.PureOps.Ideal

set_option maxRecDepth 16384

noncomputable section

namespace Cert.KernelIdeal.Host

open Cert.KernelIdeal Cert.KernelIdeal.Gen
open Idealize.ShloMosaic Idealize.ShloMosaic.TcCoe Idealize.SL.Sem Idealize.ShloMosaic.StableHlo

/-- The edge sources as row numbers: a negative source wraps by the node count. -/
def srcRows (src : IVec S2000000 32) : IVec S2000000x1 32 :=
  broadcastInDim S2000000x1 ![0] bcast_S2000000_S2000000x1_0
    (select (cmpi .slt src (broadcastInDim S2000000 ![] bcast_S_S2000000 (constantI S_ 32 0#32)))
      (addi src (broadcastInDim S2000000 ![] bcast_S_S2000000 (constantI S_ 32 500000#32))) src)

/-- The neighbour sums: the rows of h at the edge sources, added into the rows the edge destinations name. -/
def agg (h : FVec Ideal S500000x128 .f32) (src dst : IVec S2000000 32) : FVec Ideal S500000x128 .f32 :=
  Host.scatterAdd (F := Ideal) scatter_S500000x128_S2000000x1_S2000000x128_1_0_0_1
    (broadcastInDim S500000x128 ![] bcast_S_S500000x128 (constant (F := Ideal) S_ .f32 0x00000000#32))
    (broadcastInDim S2000000x1 ![0] bcast_S2000000_S2000000x1_0 dst)
    (Host.gather gather_S500000x128_S2000000x1_S2000000x128_1_0_n_n_0_1_1128 h (srcRows src))

/-- The inverse in-degrees: one over the number of edges into each node, the count floored at one. -/
def invDeg (dst : IVec S2000000 32) : FVec Ideal S500000 .f32 :=
  Host.divf (F := Ideal) (broadcastInDim S500000 ![] bcast_S_S500000 (constant (F := Ideal) S_ .f32 0x3F800000#32))
    (maximumf (F := Ideal) (Host.scatterAdd (F := Ideal) scatter_S500000_S2000000x1_S2000000_n_0_0_1
        (broadcastInDim S500000 ![] bcast_S_S500000 (constant (F := Ideal) S_ .f32 0x00000000#32))
        (broadcastInDim S2000000x1 ![0] bcast_S2000000_S2000000x1_0 dst)
        (broadcastInDim S2000000 ![] bcast_S_S2000000 (constant (F := Ideal) S_ .f32 0x3F800000#32)))
      (broadcastInDim S500000 ![] bcast_S_S500000 (constant (F := Ideal) S_ .f32 0x3F800000#32)))

/-- One layer's 128 × 128 weight matrix out of the stack of three. -/
def wAt (off : Fin 3 → Nat) (hs : S3x128x128.Slices off S1x128x128) (W : FVec Ideal S3x128x128 .f32) : FVec Ideal S128x128 .f32 :=
  shapeCast S128x128 (extractStridedSlice S1x128x128 off W hs) shapeCasts_S1x128x128_S128x128

/-- One layer's bias row out of the stack of three. -/
def bAt (off : Fin 2 → Nat) (hs : S3x128.Slices off S1x128) (B : FVec Ideal S3x128 .f32) : FVec Ideal S128 .f32 :=
  shapeCast S128 (extractStridedSlice S1x128 off B hs) shapeCasts_S1x128_S128

/-- Two 128 × 128 matrices, one above the other. -/
def stack (a b : FVec Ideal S128x128 .f32) : FVec Ideal S256x128 .f32 :=
  concatenate S256x128 0 [⟨S128x128, a⟩, ⟨S128x128, b⟩] concatenates_S128x128_S128x128_S256x128_d0

/-! ## Stretch 1: the host operations before region 1 -/

theorem s1_prev (X : Valuation τ sig (Elt Ideal)) :
    after hostOps1 X (Proc.devRef .tc main_v0) = X (Proc.devRef .tc main_v0) := by
  after_results_simp
theorem s1_nb (X : Valuation τ sig (Elt Ideal)) :
    (after hostOps1 X (Proc.devRef .tc main_v19) : FVec Ideal S500000x128 .f32)
      = agg (X (Proc.devRef .tc main_v0)) (X (Proc.devRef .tc main_arg1)) (X (Proc.devRef .tc main_arg2)) := by
  after_results_simp; rfl
theorem s1_wc (X : Valuation τ sig (Elt Ideal)) :
    (after hostOps1 X (Proc.devRef .tc main_v24) : FVec Ideal S256x128 .f32)
      = stack (wAt ![0, 0, 0] slices_S3x128x128_S1x128x128_0_0_0 (X (Proc.devRef .tc main_arg5)))
          (wAt ![0, 0, 0] slices_S3x128x128_S1x128x128_0_0_0 (X (Proc.devRef .tc main_arg6))) := by
  after_results_simp; rfl
theorem s1_bb (X : Valuation τ sig (Elt Ideal)) :
    (after hostOps1 X (Proc.devRef .tc main_v26) : FVec Ideal S128 .f32)
      = bAt ![0, 0] slices_S3x128_S1x128_0_0 (X (Proc.devRef .tc main_arg7)) := by
  after_results_simp; rfl
theorem s1_deg (X : Valuation τ sig (Elt Ideal)) :
    (after hostOps1 X (Proc.devRef .tc main_v9) : FVec Ideal S500000x1 .f32)
      = shapeCast S500000x1 (invDeg (X (Proc.devRef .tc main_arg2))) shapeCasts_S500000_S500000x1 := by
  after_results_simp; rfl
theorem s1_arg1 (X : Valuation τ sig (Elt Ideal)) :
    after hostOps1 X (Proc.devRef .tc main_arg1) = X (Proc.devRef .tc main_arg1) := by
  after_results_simp
theorem s1_arg2 (X : Valuation τ sig (Elt Ideal)) :
    after hostOps1 X (Proc.devRef .tc main_arg2) = X (Proc.devRef .tc main_arg2) := by
  after_results_simp
theorem s1_arg5 (X : Valuation τ sig (Elt Ideal)) :
    after hostOps1 X (Proc.devRef .tc main_arg5) = X (Proc.devRef .tc main_arg5) := by
  after_results_simp
theorem s1_arg6 (X : Valuation τ sig (Elt Ideal)) :
    after hostOps1 X (Proc.devRef .tc main_arg6) = X (Proc.devRef .tc main_arg6) := by
  after_results_simp
theorem s1_arg7 (X : Valuation τ sig (Elt Ideal)) :
    after hostOps1 X (Proc.devRef .tc main_arg7) = X (Proc.devRef .tc main_arg7) := by
  after_results_simp

/-! ## Stretch 2: the host operations before region 2 -/

theorem s2_prev (X : Valuation τ sig (Elt Ideal)) :
    after hostOps2 X (Proc.devRef .tc main_v27) = X (Proc.devRef .tc main_v27) := by
  after_results_simp
theorem s2_nb (X : Valuation τ sig (Elt Ideal)) :
    (after hostOps2 X (Proc.devRef .tc main_v37) : FVec Ideal S500000x128 .f32)
      = agg (X (Proc.devRef .tc main_v27)) (X (Proc.devRef .tc main_arg1)) (X (Proc.devRef .tc main_arg2)) := by
  after_results_simp; rfl
theorem s2_wc (X : Valuation τ sig (Elt Ideal)) :
    (after hostOps2 X (Proc.devRef .tc main_v42) : FVec Ideal S256x128 .f32)
      = stack (wAt ![1, 0, 0] slices_S3x128x128_S1x128x128_1_0_0 (X (Proc.devRef .tc main_arg5)))
          (wAt ![1, 0, 0] slices_S3x128x128_S1x128x128_1_0_0 (X (Proc.devRef .tc main_arg6))) := by
  after_results_simp; rfl
theorem s2_bb (X : Valuation τ sig (Elt Ideal)) :
    (after hostOps2 X (Proc.devRef .tc main_v44) : FVec Ideal S128 .f32)
      = bAt ![1, 0] slices_S3x128_S1x128_1_0 (X (Proc.devRef .tc main_arg7)) := by
  after_results_simp; rfl
theorem s2_deg (X : Valuation τ sig (Elt Ideal)) :
    after hostOps2 X (Proc.devRef .tc main_v9) = X (Proc.devRef .tc main_v9) := by
  after_results_simp
theorem s2_arg1 (X : Valuation τ sig (Elt Ideal)) :
    after hostOps2 X (Proc.devRef .tc main_arg1) = X (Proc.devRef .tc main_arg1) := by
  after_results_simp
theorem s2_arg2 (X : Valuation τ sig (Elt Ideal)) :
    after hostOps2 X (Proc.devRef .tc main_arg2) = X (Proc.devRef .tc main_arg2) := by
  after_results_simp
theorem s2_arg5 (X : Valuation τ sig (Elt Ideal)) :
    after hostOps2 X (Proc.devRef .tc main_arg5) = X (Proc.devRef .tc main_arg5) := by
  after_results_simp
theorem s2_arg6 (X : Valuation τ sig (Elt Ideal)) :
    after hostOps2 X (Proc.devRef .tc main_arg6) = X (Proc.devRef .tc main_arg6) := by
  after_results_simp
theorem s2_arg7 (X : Valuation τ sig (Elt Ideal)) :
    after hostOps2 X (Proc.devRef .tc main_arg7) = X (Proc.devRef .tc main_arg7) := by
  after_results_simp

/-! ## Stretch 3: the host operations before region 3 -/

theorem s3_prev (X : Valuation τ sig (Elt Ideal)) :
    after hostOps3 X (Proc.devRef .tc main_v45) = X (Proc.devRef .tc main_v45) := by
  after_results_simp
theorem s3_nb (X : Valuation τ sig (Elt Ideal)) :
    (after hostOps3 X (Proc.devRef .tc main_v55) : FVec Ideal S500000x128 .f32)
      = agg (X (Proc.devRef .tc main_v45)) (X (Proc.devRef .tc main_arg1)) (X (Proc.devRef .tc main_arg2)) := by
  after_results_simp; rfl
theorem s3_wc (X : Valuation τ sig (Elt Ideal)) :
    (after hostOps3 X (Proc.devRef .tc main_v60) : FVec Ideal S256x128 .f32)
      = stack (wAt ![2, 0, 0] slices_S3x128x128_S1x128x128_2_0_0 (X (Proc.devRef .tc main_arg5)))
          (wAt ![2, 0, 0] slices_S3x128x128_S1x128x128_2_0_0 (X (Proc.devRef .tc main_arg6))) := by
  after_results_simp; rfl
theorem s3_bb (X : Valuation τ sig (Elt Ideal)) :
    (after hostOps3 X (Proc.devRef .tc main_v62) : FVec Ideal S128 .f32)
      = bAt ![2, 0] slices_S3x128_S1x128_2_0 (X (Proc.devRef .tc main_arg7)) := by
  after_results_simp; rfl
theorem s3_deg (X : Valuation τ sig (Elt Ideal)) :
    after hostOps3 X (Proc.devRef .tc main_v9) = X (Proc.devRef .tc main_v9) := by
  after_results_simp
theorem s3_arg1 (X : Valuation τ sig (Elt Ideal)) :
    after hostOps3 X (Proc.devRef .tc main_arg1) = X (Proc.devRef .tc main_arg1) := by
  after_results_simp
theorem s3_arg2 (X : Valuation τ sig (Elt Ideal)) :
    after hostOps3 X (Proc.devRef .tc main_arg2) = X (Proc.devRef .tc main_arg2) := by
  after_results_simp
theorem s3_arg5 (X : Valuation τ sig (Elt Ideal)) :
    after hostOps3 X (Proc.devRef .tc main_arg5) = X (Proc.devRef .tc main_arg5) := by
  after_results_simp
theorem s3_arg6 (X : Valuation τ sig (Elt Ideal)) :
    after hostOps3 X (Proc.devRef .tc main_arg6) = X (Proc.devRef .tc main_arg6) := by
  after_results_simp
theorem s3_arg7 (X : Valuation τ sig (Elt Ideal)) :
    after hostOps3 X (Proc.devRef .tc main_arg7) = X (Proc.devRef .tc main_arg7) := by
  after_results_simp

end Cert.KernelIdeal.Host

end
-- ==== Proof.Fold.lean ====
/-
  The idealized kernel's result as one function of the arguments.

  Following the buffers boundary by boundary: region 0 leaves the projection of x; each stretch of host operations
  then forms the neighbour sums of the current features, the stacked weights and the bias of its layer (the first
  also the inverse in-degrees, which no later operation writes), and each layer's region leaves the layer of what
  it found. The upper and lower halves of two matrices stacked one above the other are the two matrices, and the
  single column of a vector laid as a column is the vector; so the result buffer ends at three layers over the
  projection, every layer reading the arguments as launched.
-/
import proofs.«171101_j24988119728557_2_alg».proof.Proof.Gen.KernelIdeal.Frame
import proofs.«171101_j24988119728557_2_alg».proof.Proof.Region0
import proofs.«171101_j24988119728557_2_alg».proof.Proof.Region1
import proofs.«171101_j24988119728557_2_alg».proof.Proof.Region2
import proofs.«171101_j24988119728557_2_alg».proof.Proof.Region3
import proofs.«171101_j24988119728557_2_alg».proof.Proof.HostStretch
import proofs.«171101_j24988119728557_2_alg».proof.Proof.LibKeepdims

set_option maxRecDepth 16384

noncomputable section

namespace Cert.KernelIdeal.Fold

open Cert.KernelIdeal Cert.KernelIdeal.Gen Cert.KernelIdeal.Host Cert.Sage Cert.Lib
open Idealize.ShloMosaic Idealize.ShloMosaic.TcCoe Idealize.ShloMosaic.ValueIdx Idealize.SL.Sem
open Idealize.ShloMosaic.Pipeline (Dat Cfg Window)

/-- The single column of a vector laid as a column is the vector. -/
theorem colVec_cast (v : FVec Ideal S500000 .f32) (h : S500000.ShapeCasts S500000x1) :
    colVec (shapeCast S500000x1 v h) = v := by
  funext i
  obtain ⟨p, rfl⟩ : ∃ p : Fin 500000, i = ix1 p := ⟨i 0, eq_ix1 i⟩
  exact (colVec_apply _ p).trans (Keepdims.col_apply v h p 0)

/-- The upper half of two matrices stacked one above the other is the first. -/
theorem top_stack (a b : FVec Ideal S128x128 .f32) : top (stack a b) = a := by
  funext i
  obtain ⟨k, q, rfl⟩ : ∃ (k : Fin 128) (q : Fin 128), i = ix2 k q := ⟨i 0, i 1, eq_ix2 i⟩
  rw [top_apply]
  unfold stack
  exact concatenate_pair_apply_left (t := S256x128) (s₁ := S128x128) (s₂ := S128x128) (0 : Fin 2) a b
    concatenates_S128x128_S128x128_S256x128_d0 (ix2 (⟨k.val, by omega⟩ : Fin 256) q) rfl (ix2 k q)
    (fun d => match d with | ⟨0, _⟩ => rfl | ⟨1, _⟩ => rfl)

/-- The lower half of two matrices stacked one above the other is the second. -/
theorem bot_stack (a b : FVec Ideal S128x128 .f32) : bot (stack a b) = b := by
  funext i
  obtain ⟨k, q, rfl⟩ : ∃ (k : Fin 128) (q : Fin 128), i = ix2 k q := ⟨i 0, i 1, eq_ix2 i⟩
  rw [bot_apply]
  unfold stack
  exact concatenate_pair_apply_right (t := S256x128) (s₁ := S128x128) (s₂ := S128x128) (0 : Fin 2) a b
    concatenates_S128x128_S128x128_S256x128_d0 (ix2 (⟨128 + k.val, by omega⟩ : Fin 256) q) rfl rfl (ix2 k q)
    (fun d hd => match d, hd with | ⟨0, _⟩, hd => absurd rfl hd | ⟨1, _⟩, _ => rfl)
    (show k.val + 128 = 128 + k.val by omega)

/-- A layer of equal arrays is equal. -/
theorem layer_congr {h h' s s' : Mat 500000 128} {d d' : Row 500000} {ws ws' wn wn' : Mat 128 128} {b b' : Row 128}
    (eh : h = h') (es : s = s') (ed : d = d') (ews : ws = ws') (ewn : wn = wn') (eb : b = b') :
    layer h s d ws wn b = layer h' s' d' ws' wn' b' := by
  subst eh es ed ews ewn eb; rfl

variable (m : (ℓ : Loc nD τ sig) → Buf (Elt Ideal) ℓ) (ρ : Dev nD → PrngReg) (c : Dev nD)

/-- The arguments as the launch memory holds them on core c. -/
abbrev aX : FVec Ideal S500000x117 .f32 := m ((c : Thread nD τ).loc main_arg0)
abbrev aSrc : IVec S2000000 32 := m ((c : Thread nD τ).loc main_arg1)
abbrev aDst : IVec S2000000 32 := m ((c : Thread nD τ).loc main_arg2)
abbrev aWin : FVec Ideal S117x128 .f32 := m ((c : Thread nD τ).loc main_arg3)
abbrev aBin : FVec Ideal S128 .f32 := m ((c : Thread nD τ).loc main_arg4)
abbrev aWs : FVec Ideal S3x128x128 .f32 := m ((c : Thread nD τ).loc main_arg5)
abbrev aWn : FVec Ideal S3x128x128 .f32 := m ((c : Thread nD τ).loc main_arg6)
abbrev aB : FVec Ideal S3x128 .f32 := m ((c : Thread nD τ).loc main_arg7)

/-- The node features after the input projection. -/
def feat0 : FVec Ideal S500000x128 .f32 := proj (aX m c) (aWin m c) (aBin m c)

/-! ## Through region 0 -/

theorem w1_out : (W1 m ρ c (Proc.devRef .tc main_v0) : FVec Ideal S500000x128 .f32) = feat0 m c :=
  (W1_arr m ρ c 3).trans (Reg0.final (V0 m ρ) c)
theorem w1_arg1 : W1 m ρ c (Proc.devRef .tc main_arg1) = m ((c : Thread nD τ).loc main_arg1) :=
  (W1_of_ne m ρ c main_arg1 (by decide)).trans rfl
theorem w1_arg2 : W1 m ρ c (Proc.devRef .tc main_arg2) = m ((c : Thread nD τ).loc main_arg2) :=
  (W1_of_ne m ρ c main_arg2 (by decide)).trans rfl
theorem w1_arg5 : W1 m ρ c (Proc.devRef .tc main_arg5) = m ((c : Thread nD τ).loc main_arg5) :=
  (W1_of_ne m ρ c main_arg5 (by decide)).trans rfl
theorem w1_arg6 : W1 m ρ c (Proc.devRef .tc main_arg6) = m ((c : Thread nD τ).loc main_arg6) :=
  (W1_of_ne m ρ c main_arg6 (by decide)).trans rfl
theorem w1_arg7 : W1 m ρ c (Proc.devRef .tc main_arg7) = m ((c : Thread nD τ).loc main_arg7) :=
  (W1_of_ne m ρ c main_arg7 (by decide)).trans rfl

/-! ## Through stretch 1 and region 1 -/

theorem v2_h : (V2 m ρ c main_v0 : FVec Ideal S500000x128 .f32) = feat0 m c :=
  (s1_prev (W1 m ρ c)).trans (w1_out m ρ c)
theorem v2_nb : (V2 m ρ c main_v19 : FVec Ideal S500000x128 .f32) = agg (feat0 m c) (aSrc m c) (aDst m c) :=
  (s1_nb (W1 m ρ c)).trans (congr (congr (congrArg agg (w1_out m ρ c)) (w1_arg1 m ρ c)) (w1_arg2 m ρ c))
theorem v2_deg : (V2 m ρ c main_v9 : FVec Ideal S500000x1 .f32) = shapeCast S500000x1 (invDeg (aDst m c)) shapeCasts_S500000_S500000x1 :=
  (s1_deg (W1 m ρ c)).trans (congrArg (fun d => shapeCast S500000x1 (invDeg d) shapeCasts_S500000_S500000x1) (w1_arg2 m ρ c))
theorem v2_wc : (V2 m ρ c main_v24 : FVec Ideal S256x128 .f32)
    = stack (wAt ![0, 0, 0] slices_S3x128x128_S1x128x128_0_0_0 (aWs m c)) (wAt ![0, 0, 0] slices_S3x128x128_S1x128x128_0_0_0 (aWn m c)) :=
  (s1_wc (W1 m ρ c)).trans (congrArg₂ (fun a b => stack (wAt ![0, 0, 0] slices_S3x128x128_S1x128x128_0_0_0 a) (wAt ![0, 0, 0] slices_S3x128x128_S1x128x128_0_0_0 b)) (w1_arg5 m ρ c) (w1_arg6 m ρ c))
theorem v2_bb : (V2 m ρ c main_v26 : FVec Ideal S128 .f32) = bAt ![0, 0] slices_S3x128_S1x128_0_0 (aB m c) :=
  (s1_bb (W1 m ρ c)).trans (congrArg (bAt ![0, 0] slices_S3x128_S1x128_0_0) (w1_arg7 m ρ c))

/-- The node features after layer 1. -/
def feat1 : FVec Ideal S500000x128 .f32 :=
  layer (feat0 m c) (agg (feat0 m c) (aSrc m c) (aDst m c)) (invDeg (aDst m c))
    (wAt ![0, 0, 0] slices_S3x128x128_S1x128x128_0_0_0 (aWs m c)) (wAt ![0, 0, 0] slices_S3x128x128_S1x128x128_0_0_0 (aWn m c))
    (bAt ![0, 0] slices_S3x128_S1x128_0_0 (aB m c))

theorem w3_out : (W3 m ρ c (Proc.devRef .tc main_v27) : FVec Ideal S500000x128 .f32) = feat1 m c :=
  (W3_arr m ρ c 5).trans ((Reg1.final (V2 m ρ) c).trans
    (layer_congr (v2_h m ρ c) (v2_nb m ρ c)
      ((congrArg colVec (v2_deg m ρ c)).trans (colVec_cast _ _))
      ((congrArg top (v2_wc m ρ c)).trans (top_stack _ _))
      ((congrArg bot (v2_wc m ρ c)).trans (bot_stack _ _))
      (v2_bb m ρ c)))
theorem w3_deg : (W3 m ρ c (Proc.devRef .tc main_v9) : FVec Ideal S500000x1 .f32) = shapeCast S500000x1 (invDeg (aDst m c)) shapeCasts_S500000_S500000x1 :=
  (W3_arr m ρ c 2).trans (((dat1 (V2 m ρ) c).arrAt_in 2 rfl _).trans ((A_eq1 (V2 m ρ) c 2).trans (v2_deg m ρ c)))
theorem w3_arg1 : W3 m ρ c (Proc.devRef .tc main_arg1) = m ((c : Thread nD τ).loc main_arg1) :=
  (W3_of_ne m ρ c main_arg1 (by decide)).trans ((s1_arg1 (W1 m ρ c)).trans (w1_arg1 m ρ c))
theorem w3_arg2 : W3 m ρ c (Proc.devRef .tc main_arg2) = m ((c : Thread nD τ).loc main_arg2) :=
  (W3_of_ne m ρ c main_arg2 (by decide)).trans ((s1_arg2 (W1 m ρ c)).trans (w1_arg2 m ρ c))
theorem w3_arg5 : W3 m ρ c (Proc.devRef .tc main_arg5) = m ((c : Thread nD τ).loc main_arg5) :=
  (W3_of_ne m ρ c main_arg5 (by decide)).trans ((s1_arg5 (W1 m ρ c)).trans (w1_arg5 m ρ c))
theorem w3_arg6 : W3 m ρ c (Proc.devRef .tc main_arg6) = m ((c : Thread nD τ).loc main_arg6) :=
  (W3_of_ne m ρ c main_arg6 (by decide)).trans ((s1_arg6 (W1 m ρ c)).trans (w1_arg6 m ρ c))
theorem w3_arg7 : W3 m ρ c (Proc.devRef .tc main_arg7) = m ((c : Thread nD τ).loc main_arg7) :=
  (W3_of_ne m ρ c main_arg7 (by decide)).trans ((s1_arg7 (W1 m ρ c)).trans (w1_arg7 m ρ c))

/-! ## Through stretch 2 and region 2 -/

theorem v4_h : (V4 m ρ c main_v27 : FVec Ideal S500000x128 .f32) = feat1 m c :=
  (s2_prev (W3 m ρ c)).trans (w3_out m ρ c)
theorem v4_nb : (V4 m ρ c main_v37 : FVec Ideal S500000x128 .f32) = agg (feat1 m c) (aSrc m c) (aDst m c) :=
  (s2_nb (W3 m ρ c)).trans (congr (congr (congrArg agg (w3_out m ρ c)) (w3_arg1 m ρ c)) (w3_arg2 m ρ c))
theorem v4_deg : (V4 m ρ c main_v9 : FVec Ideal S500000x1 .f32) = shapeCast S500000x1 (invDeg (aDst m c)) shapeCasts_S500000_S500000x1 :=
  (s2_deg (W3 m ρ c)).trans (w3_deg m ρ c)
theorem v4_wc : (V4 m ρ c main_v42 : FVec Ideal S256x128 .f32)
    = stack (wAt ![1, 0, 0] slices_S3x128x128_S1x128x128_1_0_0 (aWs m c)) (wAt ![1, 0, 0] slices_S3x128x128_S1x128x128_1_0_0 (aWn m c)) :=
  (s2_wc (W3 m ρ c)).trans (congrArg₂ (fun a b => stack (wAt ![1, 0, 0] slices_S3x128x128_S1x128x128_1_0_0 a) (wAt ![1, 0, 0] slices_S3x128x128_S1x128x128_1_0_0 b)) (w3_arg5 m ρ c) (w3_arg6 m ρ c))
theorem v4_bb : (V4 m ρ c main_v44 : FVec Ideal S128 .f32) = bAt ![1, 0] slices_S3x128_S1x128_1_0 (aB m c) :=
  (s2_bb (W3 m ρ c)).trans (congrArg (bAt ![1, 0] slices_S3x128_S1x128_1_0) (w3_arg7 m ρ c))

/-- The node features after layer 2. -/
def feat2 : FVec Ideal S500000x128 .f32 :=
  layer (feat1 m c) (agg (feat1 m c) (aSrc m c) (aDst m c)) (invDeg (aDst m c))
    (wAt ![1, 0, 0] slices_S3x128x128_S1x128x128_1_0_0 (aWs m c)) (wAt ![1, 0, 0] slices_S3x128x128_S1x128x128_1_0_0 (aWn m c))
    (bAt ![1, 0] slices_S3x128_S1x128_1_0 (aB m c))

theorem w5_out : (W5 m ρ c (Proc.devRef .tc main_v45) : FVec Ideal S500000x128 .f32) = feat2 m c :=
  (W5_arr m ρ c 5).trans ((Reg2.final (V4 m ρ) c).trans
    (layer_congr (v4_h m ρ c) (v4_nb m ρ c)
      ((congrArg colVec (v4_deg m ρ c)).trans (colVec_cast _ _))
      ((congrArg top (v4_wc m ρ c)).trans (top_stack _ _))
      ((congrArg bot (v4_wc m ρ c)).trans (bot_stack _ _))
      (v4_bb m ρ c)))
theorem w5_deg : (W5 m ρ c (Proc.devRef .tc main_v9) : FVec Ideal S500000x1 .f32) = shapeCast S500000x1 (invDeg (aDst m c)) shapeCasts_S500000_S500000x1 :=
  (W5_arr m ρ c 2).trans (((dat2 (V4 m ρ) c).arrAt_in 2 rfl _).trans ((A_eq2 (V4 m ρ) c 2).trans (v4_deg m ρ c)))
theorem w5_arg1 : W5 m ρ c (Proc.devRef .tc main_arg1) = m ((c : Thread nD τ).loc main_arg1) :=
  (W5_of_ne m ρ c main_arg1 (by decide)).trans ((s2_arg1 (W3 m ρ c)).trans (w3_arg1 m ρ c))
theorem w5_arg2 : W5 m ρ c (Proc.devRef .tc main_arg2) = m ((c : Thread nD τ).loc main_arg2) :=
  (W5_of_ne m ρ c main_arg2 (by decide)).trans ((s2_arg2 (W3 m ρ c)).trans (w3_arg2 m ρ c))
theorem w5_arg5 : W5 m ρ c (Proc.devRef .tc main_arg5) = m ((c : Thread nD τ).loc main_arg5) :=
  (W5_of_ne m ρ c main_arg5 (by decide)).trans ((s2_arg5 (W3 m ρ c)).trans (w3_arg5 m ρ c))
theorem w5_arg6 : W5 m ρ c (Proc.devRef .tc main_arg6) = m ((c : Thread nD τ).loc main_arg6) :=
  (W5_of_ne m ρ c main_arg6 (by decide)).trans ((s2_arg6 (W3 m ρ c)).trans (w3_arg6 m ρ c))
theorem w5_arg7 : W5 m ρ c (Proc.devRef .tc main_arg7) = m ((c : Thread nD τ).loc main_arg7) :=
  (W5_of_ne m ρ c main_arg7 (by decide)).trans ((s2_arg7 (W3 m ρ c)).trans (w3_arg7 m ρ c))

/-! ## Through stretch 3 and region 3 -/

theorem v6_h : (V6 m ρ c main_v45 : FVec Ideal S500000x128 .f32) = feat2 m c :=
  (s3_prev (W5 m ρ c)).trans (w5_out m ρ c)
theorem v6_nb : (V6 m ρ c main_v55 : FVec Ideal S500000x128 .f32) = agg (feat2 m c) (aSrc m c) (aDst m c) :=
  (s3_nb (W5 m ρ c)).trans (congr (congr (congrArg agg (w5_out m ρ c)) (w5_arg1 m ρ c)) (w5_arg2 m ρ c))
theorem v6_deg : (V6 m ρ c main_v9 : FVec Ideal S500000x1 .f32) = shapeCast S500000x1 (invDeg (aDst m c)) shapeCasts_S500000_S500000x1 :=
  (s3_deg (W5 m ρ c)).trans (w5_deg m ρ c)
theorem v6_wc : (V6 m ρ c main_v60 : FVec Ideal S256x128 .f32)
    = stack (wAt ![2, 0, 0] slices_S3x128x128_S1x128x128_2_0_0 (aWs m c)) (wAt ![2, 0, 0] slices_S3x128x128_S1x128x128_2_0_0 (aWn m c)) :=
  (s3_wc (W5 m ρ c)).trans (congrArg₂ (fun a b => stack (wAt ![2, 0, 0] slices_S3x128x128_S1x128x128_2_0_0 a) (wAt ![2, 0, 0] slices_S3x128x128_S1x128x128_2_0_0 b)) (w5_arg5 m ρ c) (w5_arg6 m ρ c))
theorem v6_bb : (V6 m ρ c main_v62 : FVec Ideal S128 .f32) = bAt ![2, 0] slices_S3x128_S1x128_2_0 (aB m c) :=
  (s3_bb (W5 m ρ c)).trans (congrArg (bAt ![2, 0] slices_S3x128_S1x128_2_0) (w5_arg7 m ρ c))

/-- The node features after layer 3. -/
def feat3 : FVec Ideal S500000x128 .f32 :=
  layer (feat2 m c) (agg (feat2 m c) (aSrc m c) (aDst m c)) (invDeg (aDst m c))
    (wAt ![2, 0, 0] slices_S3x128x128_S1x128x128_2_0_0 (aWs m c)) (wAt ![2, 0, 0] slices_S3x128x128_S1x128x128_2_0_0 (aWn m c))
    (bAt ![2, 0] slices_S3x128_S1x128_2_0 (aB m c))

theorem w7_out : (W7 m ρ c (Proc.devRef .tc main_v63) : FVec Ideal S500000x128 .f32) = feat3 m c :=
  (W7_arr m ρ c 5).trans ((Reg3.final (V6 m ρ) c).trans
    (layer_congr (v6_h m ρ c) (v6_nb m ρ c)
      ((congrArg colVec (v6_deg m ρ c)).trans (colVec_cast _ _))
      ((congrArg top (v6_wc m ρ c)).trans (top_stack _ _))
      ((congrArg bot (v6_wc m ρ c)).trans (bot_stack _ _))
      (v6_bb m ρ c)))
theorem w7_deg : (W7 m ρ c (Proc.devRef .tc main_v9) : FVec Ideal S500000x1 .f32) = shapeCast S500000x1 (invDeg (aDst m c)) shapeCasts_S500000_S500000x1 :=
  (W7_arr m ρ c 2).trans (((dat3 (V6 m ρ) c).arrAt_in 2 rfl _).trans ((A_eq3 (V6 m ρ) c 2).trans (v6_deg m ρ c)))
theorem w7_arg1 : W7 m ρ c (Proc.devRef .tc main_arg1) = m ((c : Thread nD τ).loc main_arg1) :=
  (W7_of_ne m ρ c main_arg1 (by decide)).trans ((s3_arg1 (W5 m ρ c)).trans (w5_arg1 m ρ c))
theorem w7_arg2 : W7 m ρ c (Proc.devRef .tc main_arg2) = m ((c : Thread nD τ).loc main_arg2) :=
  (W7_of_ne m ρ c main_arg2 (by decide)).trans ((s3_arg2 (W5 m ρ c)).trans (w5_arg2 m ρ c))
theorem w7_arg5 : W7 m ρ c (Proc.devRef .tc main_arg5) = m ((c : Thread nD τ).loc main_arg5) :=
  (W7_of_ne m ρ c main_arg5 (by decide)).trans ((s3_arg5 (W5 m ρ c)).trans (w5_arg5 m ρ c))
theorem w7_arg6 : W7 m ρ c (Proc.devRef .tc main_arg6) = m ((c : Thread nD τ).loc main_arg6) :=
  (W7_of_ne m ρ c main_arg6 (by decide)).trans ((s3_arg6 (W5 m ρ c)).trans (w5_arg6 m ρ c))
theorem w7_arg7 : W7 m ρ c (Proc.devRef .tc main_arg7) = m ((c : Thread nD τ).loc main_arg7) :=
  (W7_of_ne m ρ c main_arg7 (by decide)).trans ((s3_arg7 (W5 m ρ c)).trans (w5_arg7 m ρ c))

end Cert.KernelIdeal.Fold

end
-- ==== Proof.KernelRun.lean ====
/-
  The idealized kernel's run with its result named.

  @main is four pipelined regions among stretches of host operations. The contents of the TensorCore's buffers at
  each boundary are a fold from the launch memory: a stretch applies its operations, a region leaves each of its
  arrays at what its write-backs assemble and every other buffer as entered. Every weakly fair execution terminates
  without a fault in a state whose unscoped buffers hold the end of that fold; read at the result buffer this names
  the result, and read at the arguments it gives them back as launched.
-/
import proofs.«171101_j24988119728557_2_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the end of the
    fold through the segments and the argument arrays as launched. -/
theorem run_out : θ_run defs (onTc (τ := τ) (main (F := F))) ⟨m, fun _ => 0, ρ⟩ (fun r => ∀ c : Dev nD,
      r.2.mem ((c.tc : Thread nD τ).loc main_v63) = W7 m ρ c (Proc.devRef .tc main_v63)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v63 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c),
       (h c _ (mem_uc main_arg7 (by decide))).trans (W7_main_arg7 m ρ c)⟩)

end Cert.KernelIdeal.KRun

end
-- ==== Proof.RefLayers.lean ====
/-
  The reference program's four stages as the mathematics of the network.

  The reference computes the input projection as one matrix product, a broadcast row added to it, and tanh of the
  sum; and each layer as two matrix products — the node rows against the self weights, and the neighbour sums scaled
  by the inverse in-degree against the neighbour weights —, their sum, a broadcast bias row added, and the maximum
  with a broadcast zero. Reading each of these arrays at an index (p, q) through its operands, one operation at a
  time, gives exactly projAt, respectively layerAt, of the stage's inputs: the broadcasts read the row at q and the
  inverse-degree vector at p, a product reads its left operand along row p and its right operand along column q, and
  the zero word is the extended real 0. The neighbour sums, the inverse-degree vector and the per-layer weight and
  bias slices are kept as named arrays and are not looked into.
-/
import proofs.«171101_j24988119728557_2_alg».proof.Proof.Gen.ReferenceIdeal.Read
import proofs.«171101_j24988119728557_2_alg».proof.Proof.Sage

noncomputable section

namespace Cert.ReferenceIdeal.RefValue

open Cert.ReferenceIdeal Cert.ReferenceIdeal.Read Cert.Sage Idealize.ShloMosaic Idealize.ShloMosaic.ValueIdx
open scoped BigOperators

variable (x0 : (⟨S500000x117, .f32⟩ : BufTy).Contents (Elt Ideal))
  (x1 x2 : (⟨S2000000, .i32⟩ : BufTy).Contents (Elt Ideal))
  (x3 : (⟨S117x128, .f32⟩ : BufTy).Contents (Elt Ideal))
  (x4 : (⟨S128, .f32⟩ : BufTy).Contents (Elt Ideal))
  (x5 x6 : (⟨S3x128x128, .f32⟩ : BufTy).Contents (Elt Ideal))
  (x7 : (⟨S3x128, .f32⟩ : BufTy).Contents (Elt Ideal))

/-- The input projection: the product of x with the input weights, plus the bias row, under tanh. -/
theorem ref_proj : val_main_v4 (F := Ideal) x0 x3 x4 = proj x0 x3 x4 := by
  funext i
  obtain ⟨p, q, rfl⟩ : ∃ (p : Fin 500000) (q : Fin 128), i = ix2 p q := ⟨i 0, i 1, eq_ix2 i⟩
  rw [proj_apply]
  unfold projAt
  rw [val_main_v4_apply, val_main_v3_apply, val_main_v0_apply, val_main_v2_apply, val_main_v1_apply]
  -- the product reads x along row p and the weights along column q; the broadcast bias is read at q
  have el : ∀ k : Fin 117, lidx_main_v0 (ix2 p q) k = ix2 p k := fun k =>
    funext fun a => Fin.ext (by match a with | ⟨0, _⟩ => rfl | ⟨1, _⟩ => rfl)
  have er : ∀ k : Fin 117, ridx_main_v0 (ix2 p q) k = ix2 k q := fun k =>
    funext fun a => Fin.ext (by match a with | ⟨0, _⟩ => rfl | ⟨1, _⟩ => rfl)
  have eb : idx_main_v1 (idx_main_v2 (ix2 p q)) = ix1 q :=
    funext fun a => Fin.ext (by match a with | ⟨0, _⟩ => rfl)
  have hs : ∑ k : Fin 117, x0 (lidx_main_v0 (ix2 p q) k) * x3 (ridx_main_v0 (ix2 p q) k)
      = ∑ k : Fin 117, x0 (ix2 p k) * x3 (ix2 k q) :=
    Finset.sum_congr rfl fun k _ => by rw [el, er]
  rw [hs, eb, Ideal.hostUnary_tanh_def, Ideal.addf_def]

/-- The first layer, on the projected rows and their neighbour sums. -/
theorem ref_layer0 : val_main_v38 (F := Ideal) x0 x1 x2 x3 x4 x5 x6 x7
    = layer (val_main_v4 x0 x3 x4) (val_main_v23 x0 x1 x2 x3 x4) (val_main_v12 x2)
        (val_main_v27 x5) (val_main_v30 x6) (val_main_v34 x7) := by
  funext i
  obtain ⟨p, q, rfl⟩ : ∃ (p : Fin 500000) (q : Fin 128), i = ix2 p q := ⟨i 0, i 1, eq_ix2 i⟩
  rw [layer_apply]
  unfold layerAt
  rw [val_main_v38_apply, val_main_v37_apply, val_main_v32_apply, val_main_v28_apply, val_main_v31_apply,
    val_main_v36_apply, val_main_v35_apply, val_main_call0_v0_apply, val_main_call0_cst_apply]
  -- each product reads its left operand along row p and its right operand along column q
  have el1 : ∀ k : Fin 128, lidx_main_v28 (ix2 p q) k = ix2 p k := fun k =>
    funext fun a => Fin.ext (by match a with | ⟨0, _⟩ => rfl | ⟨1, _⟩ => rfl)
  have er1 : ∀ k : Fin 128, ridx_main_v28 (ix2 p q) k = ix2 k q := fun k =>
    funext fun a => Fin.ext (by match a with | ⟨0, _⟩ => rfl | ⟨1, _⟩ => rfl)
  have el2 : ∀ k : Fin 128, lidx_main_v31 (ix2 p q) k = ix2 p k := fun k =>
    funext fun a => Fin.ext (by match a with | ⟨0, _⟩ => rfl | ⟨1, _⟩ => rfl)
  have er2 : ∀ k : Fin 128, ridx_main_v31 (ix2 p q) k = ix2 k q := fun k =>
    funext fun a => Fin.ext (by match a with | ⟨0, _⟩ => rfl | ⟨1, _⟩ => rfl)
  -- the broadcast bias is read at q, the broadcast inverse degree at p
  have eb : idx_main_v35 (idx_main_v36 (ix2 p q)) = ix1 q :=
    funext fun a => Fin.ext (by match a with | ⟨0, _⟩ => rfl)
  have ed : ∀ k : Fin 128, idx_main_v13 (idx_main_v24 (ix2 p k)) = ix1 p := fun k =>
    funext fun a => Fin.ext (by match a with | ⟨0, _⟩ => rfl)
  have h1 : ∑ k : Fin 128, val_main_v4 x0 x3 x4 (lidx_main_v28 (ix2 p q) k)
        * val_main_v27 x5 (ridx_main_v28 (ix2 p q) k)
      = ∑ k : Fin 128, val_main_v4 x0 x3 x4 (ix2 p k) * val_main_v27 x5 (ix2 k q) :=
    Finset.sum_congr rfl fun k _ => by rw [el1, er1]
  have h2 : ∑ k : Fin 128, val_main_v25 x0 x1 x2 x3 x4 (lidx_main_v31 (ix2 p q) k)
        * val_main_v30 x6 (ridx_main_v31 (ix2 p q) k)
      = ∑ k : Fin 128, (val_main_v23 x0 x1 x2 x3 x4 (ix2 p k) * val_main_v12 x2 (ix1 p))
        * val_main_v30 x6 (ix2 k q) :=
    Finset.sum_congr rfl fun k _ => by
      rw [el2, er2, val_main_v25_apply, val_main_v24_apply, val_main_v13_apply, ed, Ideal.mulf_def]
  rw [h1, h2, eb, Ideal.maximumf_def, Ideal.addf_def, Ideal.addf_def, Ideal.ofBits_def, Ideal.ofBits_zero_f32]

/-- The second layer, on the first layer's rows and their neighbour sums. -/
theorem ref_layer1 : val_main_v63 (F := Ideal) x0 x1 x2 x3 x4 x5 x6 x7
    = layer (val_main_v38 x0 x1 x2 x3 x4 x5 x6 x7) (val_main_v48 x0 x1 x2 x3 x4 x5 x6 x7) (val_main_v12 x2)
        (val_main_v52 x5) (val_main_v55 x6) (val_main_v59 x7) := by
  funext i
  obtain ⟨p, q, rfl⟩ : ∃ (p : Fin 500000) (q : Fin 128), i = ix2 p q := ⟨i 0, i 1, eq_ix2 i⟩
  rw [layer_apply]
  unfold layerAt
  rw [val_main_v63_apply, val_main_v62_apply, val_main_v57_apply, val_main_v53_apply, val_main_v56_apply,
    val_main_v61_apply, val_main_v60_apply, val_main_call1_v0_apply, val_main_call1_cst_apply]
  -- each product reads its left operand along row p and its right operand along column q
  have el1 : ∀ k : Fin 128, lidx_main_v53 (ix2 p q) k = ix2 p k := fun k =>
    funext fun a => Fin.ext (by match a with | ⟨0, _⟩ => rfl | ⟨1, _⟩ => rfl)
  have er1 : ∀ k : Fin 128, ridx_main_v53 (ix2 p q) k = ix2 k q := fun k =>
    funext fun a => Fin.ext (by match a with | ⟨0, _⟩ => rfl | ⟨1, _⟩ => rfl)
  have el2 : ∀ k : Fin 128, lidx_main_v56 (ix2 p q) k = ix2 p k := fun k =>
    funext fun a => Fin.ext (by match a with | ⟨0, _⟩ => rfl | ⟨1, _⟩ => rfl)
  have er2 : ∀ k : Fin 128, ridx_main_v56 (ix2 p q) k = ix2 k q := fun k =>
    funext fun a => Fin.ext (by match a with | ⟨0, _⟩ => rfl | ⟨1, _⟩ => rfl)
  -- the broadcast bias is read at q, the broadcast inverse degree at p
  have eb : idx_main_v60 (idx_main_v61 (ix2 p q)) = ix1 q :=
    funext fun a => Fin.ext (by match a with | ⟨0, _⟩ => rfl)
  have ed : ∀ k : Fin 128, idx_main_v13 (idx_main_v49 (ix2 p k)) = ix1 p := fun k =>
    funext fun a => Fin.ext (by match a with | ⟨0, _⟩ => rfl)
  have h1 : ∑ k : Fin 128, val_main_v38 x0 x1 x2 x3 x4 x5 x6 x7 (lidx_main_v53 (ix2 p q) k)
        * val_main_v52 x5 (ridx_main_v53 (ix2 p q) k)
      = ∑ k : Fin 128, val_main_v38 x0 x1 x2 x3 x4 x5 x6 x7 (ix2 p k) * val_main_v52 x5 (ix2 k q) :=
    Finset.sum_congr rfl fun k _ => by rw [el1, er1]
  have h2 : ∑ k : Fin 128, val_main_v50 x0 x1 x2 x3 x4 x5 x6 x7 (lidx_main_v56 (ix2 p q) k)
        * val_main_v55 x6 (ridx_main_v56 (ix2 p q) k)
      = ∑ k : Fin 128, (val_main_v48 x0 x1 x2 x3 x4 x5 x6 x7 (ix2 p k) * val_main_v12 x2 (ix1 p))
        * val_main_v55 x6 (ix2 k q) :=
    Finset.sum_congr rfl fun k _ => by
      rw [el2, er2, val_main_v50_apply, val_main_v49_apply, val_main_v13_apply, ed, Ideal.mulf_def]
  rw [h1, h2, eb, Ideal.maximumf_def, Ideal.addf_def, Ideal.addf_def, Ideal.ofBits_def, Ideal.ofBits_zero_f32]

/-- The third layer, on the second layer's rows and their neighbour sums. -/
theorem ref_layer2 : val_main_v88 (F := Ideal) x0 x1 x2 x3 x4 x5 x6 x7
    = layer (val_main_v63 x0 x1 x2 x3 x4 x5 x6 x7) (val_main_v73 x0 x1 x2 x3 x4 x5 x6 x7) (val_main_v12 x2)
        (val_main_v77 x5) (val_main_v80 x6) (val_main_v84 x7) := by
  funext i
  obtain ⟨p, q, rfl⟩ : ∃ (p : Fin 500000) (q : Fin 128), i = ix2 p q := ⟨i 0, i 1, eq_ix2 i⟩
  rw [layer_apply]
  unfold layerAt
  rw [val_main_v88_apply, val_main_v87_apply, val_main_v82_apply, val_main_v78_apply, val_main_v81_apply,
    val_main_v86_apply, val_main_v85_apply, val_main_call2_v0_apply, val_main_call2_cst_apply]
  -- each product reads its left operand along row p and its right operand along column q
  have el1 : ∀ k : Fin 128, lidx_main_v78 (ix2 p q) k = ix2 p k := fun k =>
    funext fun a => Fin.ext (by match a with | ⟨0, _⟩ => rfl | ⟨1, _⟩ => rfl)
  have er1 : ∀ k : Fin 128, ridx_main_v78 (ix2 p q) k = ix2 k q := fun k =>
    funext fun a => Fin.ext (by match a with | ⟨0, _⟩ => rfl | ⟨1, _⟩ => rfl)
  have el2 : ∀ k : Fin 128, lidx_main_v81 (ix2 p q) k = ix2 p k := fun k =>
    funext fun a => Fin.ext (by match a with | ⟨0, _⟩ => rfl | ⟨1, _⟩ => rfl)
  have er2 : ∀ k : Fin 128, ridx_main_v81 (ix2 p q) k = ix2 k q := fun k =>
    funext fun a => Fin.ext (by match a with | ⟨0, _⟩ => rfl | ⟨1, _⟩ => rfl)
  -- the broadcast bias is read at q, the broadcast inverse degree at p
  have eb : idx_main_v85 (idx_main_v86 (ix2 p q)) = ix1 q :=
    funext fun a => Fin.ext (by match a with | ⟨0, _⟩ => rfl)
  have ed : ∀ k : Fin 128, idx_main_v13 (idx_main_v74 (ix2 p k)) = ix1 p := fun k =>
    funext fun a => Fin.ext (by match a with | ⟨0, _⟩ => rfl)
  have h1 : ∑ k : Fin 128, val_main_v63 x0 x1 x2 x3 x4 x5 x6 x7 (lidx_main_v78 (ix2 p q) k)
        * val_main_v77 x5 (ridx_main_v78 (ix2 p q) k)
      = ∑ k : Fin 128, val_main_v63 x0 x1 x2 x3 x4 x5 x6 x7 (ix2 p k) * val_main_v77 x5 (ix2 k q) :=
    Finset.sum_congr rfl fun k _ => by rw [el1, er1]
  have h2 : ∑ k : Fin 128, val_main_v75 x0 x1 x2 x3 x4 x5 x6 x7 (lidx_main_v81 (ix2 p q) k)
        * val_main_v80 x6 (ridx_main_v81 (ix2 p q) k)
      = ∑ k : Fin 128, (val_main_v73 x0 x1 x2 x3 x4 x5 x6 x7 (ix2 p k) * val_main_v12 x2 (ix1 p))
        * val_main_v80 x6 (ix2 k q) :=
    Finset.sum_congr rfl fun k _ => by
      rw [el2, er2, val_main_v75_apply, val_main_v74_apply, val_main_v13_apply, ed, Ideal.mulf_def]
  rw [h1, h2, eb, Ideal.maximumf_def, Ideal.addf_def, Ideal.addf_def, Ideal.ofBits_def, Ideal.ofBits_zero_f32]

end Cert.ReferenceIdeal.RefValue

end
-- ==== Proof.Bridge.lean ====
/-
  The two idealized programs compute one function.

  Both programs are three layers over the input projection, each layer reading the neighbour sums of the features
  before it. The reference writes a layer as two 128-wide products added; the kernel contracts the fused 256-wide
  row once against the stacked weights, which is the same sum regrouped. The gather along the edge sources, the sum
  into the edge destinations and the inverse in-degrees are the same host operations in both programs and are
  carried as they stand. So each program's result is the same function of the arguments, and from memories that
  agree on the arguments the two runs end with equal results.
-/
import proofs.«171101_j24988119728557_2_alg».proof.Defs
import proofs.«171101_j24988119728557_2_alg».proof.Proof.Fold
import proofs.«171101_j24988119728557_2_alg».proof.Proof.KernelRun
import proofs.«171101_j24988119728557_2_alg».proof.Proof.RefLayers
import proofs.«171101_j24988119728557_2_alg».proof.Proof.Gen.ReferenceIdeal.Read
import proofs.«171101_j24988119728557_2_alg».proof.Proof.Gen.Pre_finite_inputs

set_option maxRecDepth 16384

noncomputable section

namespace Cert.Bridge

open Cert.KernelIdeal Cert.KernelIdeal.Gen Cert.KernelIdeal.Host Cert.KernelIdeal.Fold Cert.Sage
open Idealize.ShloMosaic Idealize.ShloMosaic.TcCoe Idealize.SL.Sem

/-- One layer over the features h: the neighbour sums of h, the inverse in-degrees, and the layer's weights and bias
    out of their stacks of three. -/
def layerOf (off3 : Fin 3 → Nat) (hs3 : S3x128x128.Slices off3 S1x128x128) (off2 : Fin 2 → Nat) (hs2 : S3x128.Slices off2 S1x128)
    (h : FVec Ideal S500000x128 .f32) (src dst : IVec S2000000 32) (Ws Wn : FVec Ideal S3x128x128 .f32) (B : FVec Ideal S3x128 .f32) :
    FVec Ideal S500000x128 .f32 :=
  layer h (agg h src dst) (invDeg dst) (wAt off3 hs3 Ws) (wAt off3 hs3 Wn) (bAt off2 hs2 B)

/-- The network: three layers over the input projection. -/
def net (x : FVec Ideal S500000x117 .f32) (src dst : IVec S2000000 32) (w : FVec Ideal S117x128 .f32) (b : FVec Ideal S128 .f32)
    (Ws Wn : FVec Ideal S3x128x128 .f32) (B : FVec Ideal S3x128 .f32) : FVec Ideal S500000x128 .f32 :=
  layerOf ![2, 0, 0] slices_S3x128x128_S1x128x128_2_0_0 ![2, 0] slices_S3x128_S1x128_2_0
    (layerOf ![1, 0, 0] slices_S3x128x128_S1x128x128_1_0_0 ![1, 0] slices_S3x128_S1x128_1_0
      (layerOf ![0, 0, 0] slices_S3x128x128_S1x128x128_0_0_0 ![0, 0] slices_S3x128_S1x128_0_0
        (proj x w b) src dst Ws Wn B) src dst Ws Wn B) src dst Ws Wn B

/-- The kernel's result is the network of the arguments as launched. -/
theorem kernel_net (m : (ℓ : Loc nD τ sig) → Buf (Elt Ideal) ℓ) (c : Dev nD) :
    feat3 m c = net (aX m c) (aSrc m c) (aDst m c) (aWin m c) (aBin m c) (aWs m c) (aWn m c) (aB m c) := rfl

/-! ## The reference -/

section Reference
open Cert.ReferenceIdeal.Read Cert.ReferenceIdeal.RefValue

variable (x0 : (⟨Cert.ReferenceIdeal.S500000x117, .f32⟩ : BufTy).Contents (Elt Ideal)) (x1 x2 : (⟨Cert.ReferenceIdeal.S2000000, .i32⟩ : BufTy).Contents (Elt Ideal))
    (x3 : (⟨Cert.ReferenceIdeal.S117x128, .f32⟩ : BufTy).Contents (Elt Ideal)) (x4 : (⟨Cert.ReferenceIdeal.S128, .f32⟩ : BufTy).Contents (Elt Ideal))
    (x5 x6 : (⟨Cert.ReferenceIdeal.S3x128x128, .f32⟩ : BufTy).Contents (Elt Ideal)) (x7 : (⟨Cert.ReferenceIdeal.S3x128, .f32⟩ : BufTy).Contents (Elt Ideal))

/-- The reference's neighbour sums are the kernel's host operations on the features before them. -/
theorem ref_agg0 : val_main_v23 (F := Ideal) x0 x1 x2 x3 x4 = agg (val_main_v4 (F := Ideal) x0 x3 x4) x1 x2 := rfl
theorem ref_agg1 : val_main_v48 (F := Ideal) x0 x1 x2 x3 x4 x5 x6 x7 = agg (val_main_v38 (F := Ideal) x0 x1 x2 x3 x4 x5 x6 x7) x1 x2 := rfl
theorem ref_agg2 : val_main_v73 (F := Ideal) x0 x1 x2 x3 x4 x5 x6 x7 = agg (val_main_v63 (F := Ideal) x0 x1 x2 x3 x4 x5 x6 x7) x1 x2 := rfl
/-- The reference's inverse in-degrees, weights and biases are the kernel's. -/
theorem ref_deg : val_main_v12 (F := Ideal) x2 = invDeg x2 := rfl
theorem ref_ws0 : val_main_v27 (F := Ideal) x5 = wAt ![0, 0, 0] slices_S3x128x128_S1x128x128_0_0_0 x5 := rfl
theorem ref_wn0 : val_main_v30 (F := Ideal) x6 = wAt ![0, 0, 0] slices_S3x128x128_S1x128x128_0_0_0 x6 := rfl
theorem ref_b0 : val_main_v34 (F := Ideal) x7 = bAt ![0, 0] slices_S3x128_S1x128_0_0 x7 := rfl
theorem ref_ws1 : val_main_v52 (F := Ideal) x5 = wAt ![1, 0, 0] slices_S3x128x128_S1x128x128_1_0_0 x5 := rfl
theorem ref_wn1 : val_main_v55 (F := Ideal) x6 = wAt ![1, 0, 0] slices_S3x128x128_S1x128x128_1_0_0 x6 := rfl
theorem ref_b1 : val_main_v59 (F := Ideal) x7 = bAt ![1, 0] slices_S3x128_S1x128_1_0 x7 := rfl
theorem ref_ws2 : val_main_v77 (F := Ideal) x5 = wAt ![2, 0, 0] slices_S3x128x128_S1x128x128_2_0_0 x5 := rfl
theorem ref_wn2 : val_main_v80 (F := Ideal) x6 = wAt ![2, 0, 0] slices_S3x128x128_S1x128x128_2_0_0 x6 := rfl
theorem ref_b2 : val_main_v84 (F := Ideal) x7 = bAt ![2, 0] slices_S3x128_S1x128_2_0 x7 := rfl

/-- The reference's result is the network of its arguments. -/
theorem ref_net : val_main_v88 (F := Ideal) x0 x1 x2 x3 x4 x5 x6 x7 = net x0 x1 x2 x3 x4 x5 x6 x7 := by
  have h0 := ref_proj x0 x3 x4
  have h1 : val_main_v38 (F := Ideal) x0 x1 x2 x3 x4 x5 x6 x7
      = layerOf ![0, 0, 0] slices_S3x128x128_S1x128x128_0_0_0 ![0, 0] slices_S3x128_S1x128_0_0 (proj x0 x3 x4) x1 x2 x5 x6 x7 := by
    rw [ref_layer0, ref_agg0, ref_deg, ref_ws0, ref_wn0, ref_b0, h0]; rfl
  have h2 : val_main_v63 (F := Ideal) x0 x1 x2 x3 x4 x5 x6 x7
      = layerOf ![1, 0, 0] slices_S3x128x128_S1x128x128_1_0_0 ![1, 0] slices_S3x128_S1x128_1_0
          (layerOf ![0, 0, 0] slices_S3x128x128_S1x128x128_0_0_0 ![0, 0] slices_S3x128_S1x128_0_0 (proj x0 x3 x4) x1 x2 x5 x6 x7) x1 x2 x5 x6 x7 := by
    rw [ref_layer1, ref_agg1, ref_deg, ref_ws1, ref_wn1, ref_b1, h1]; rfl
  rw [ref_layer2, ref_agg2, ref_deg, ref_ws2, ref_wn2, ref_b2, h2]; rfl

end Reference

/-! ## The claim -/

/-- From memories agreeing on the arguments both idealized programs run to the network of the arguments. -/
theorem algebraic : Cert.algebraic_KernelIdeal_ReferenceIdeal := by
  intro m ρ m' ρ' _ hagree
  refine ⟨fun c => feat3 m c, ?_, ?_⟩
  · exact (θ_run Cert.KernelIdeal.defs _ _).mono (fun r h c => ⟨(h c).1.trans (w7_out m ρ c), (h c).2⟩)
      (Cert.KernelIdeal.KRun.run_out (F := Ideal) m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v88_eq, (hagree c).1, (hagree c).2.1, (hagree c).2.2.1, (hagree c).2.2.2.1, (hagree c).2.2.2.2.1,
      (hagree c).2.2.2.2.2.1, (hagree c).2.2.2.2.2.2.1, (hagree c).2.2.2.2.2.2.2]
    exact (ref_net _ _ _ _ _ _ _ _).trans (kernel_net m c).symm

end Cert.Bridge

end
-- ==== Proof.lean ====
/-
  A three-layer mean-aggregating graph network on 500000 nodes and 2000000 edges: a kernel in four pipelined
  regions against a plain reference.

  Node features are rows. The input projection is tanh (x · W_in + b_in). A layer sends the features h to
  max (h · W_self + (s ∘ d) · W_neigh + b, 0), where s is the sum of h's rows over each node's incoming edges and
  d the reciprocal of the node's in-degree floored at one. The kernel computes the projection and each layer in
  row blocks on the TensorCore (a change of float format is the identity on exact values) and leaves the gathers,
  the edge sums and the degrees to host operations between the regions — the same host operations the reference
  runs, carried here as they stand. Inside a layer the kernel contracts the fused row (h | s ∘ d) once against the
  two weight matrices stacked, where the reference adds two products: one sum over 256 positions against the sum of
  two sums over 128, equal by commutativity and associativity of addition on the extended reals, no finiteness
  needed. So at the exact values both programs end with the same array.

  The three frames: each program runs to the end without a fault and leaves its arguments as launched (the two
  kernels by their launch proofs over the four regions, the reference by its run with the result dropped). The
  idealized kernel is the kernel's own text read at exact values, so there is nothing to preserve beyond that.
-/
import proofs.«171101_j24988119728557_2_alg».proof.Defs
import proofs.«171101_j24988119728557_2_alg».proof.Proof.Gen.Kernel
import proofs.«171101_j24988119728557_2_alg».proof.Proof.Gen.Kernel.Frame
import proofs.«171101_j24988119728557_2_alg».proof.Proof.Gen.KernelIdeal
import proofs.«171101_j24988119728557_2_alg».proof.Proof.Gen.KernelIdeal.Frame
import proofs.«171101_j24988119728557_2_alg».proof.Proof.Gen.ReferenceIdeal
import proofs.«171101_j24988119728557_2_alg».proof.Proof.Gen.ReferenceIdeal.Run
import proofs.«171101_j24988119728557_2_alg».proof.Proof.Gen.ReferenceIdeal.Read
import proofs.«171101_j24988119728557_2_alg».proof.Proof.Gen.Pre_finite_inputs
import proofs.«171101_j24988119728557_2_alg».proof.Proof.Bridge
import Idealize.ShloMosaic.Adequacy
import Idealize.ShloMosaic.Init

noncomputable section

namespace Cert.Proof

open Idealize.ShloMosaic Idealize.SL.Sem

/-- The kernel as printed runs and leaves its arguments as launched. -/
theorem frame_kernel : Cert.frame_Kernel := fun m ρ _ => Cert.Kernel.Gen.frame m ρ

/-- The idealized kernel runs and leaves its arguments as launched. -/
theorem frame_kernelIdeal : Cert.frame_KernelIdeal := fun m ρ _ => Cert.KernelIdeal.Gen.frame m ρ

/-- The idealized reference runs and leaves its arguments as launched: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealized kernel is the kernel's text read at exact values: the pass rewrote nothing. -/
theorem preserves : Cert.preserves_Kernel_KernelIdeal := trivial

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, Cert.Bridge.algebraic⟩

end Cert.Proof

end
